-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x32 : Shape := ⟨2, ![262144, 32]⟩
abbrev S100x128 : Shape := ⟨2, ![100, 128]⟩
abbrev S128x160 : Shape := ⟨2, ![128, 160]⟩
abbrev S128 : Shape := ⟨1, ![128]⟩
abbrev S128x128 : Shape := ⟨2, ![128, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x32 : S_.BroadcastsInDim S262144x32 (![] : Fin 0 → Fin S262144x32.rank)
  reducesTo_S262144x32_S_d0_1 : S262144x32.ReducesTo [0, 1] S_
  bcast_S_S100x128 : S_.BroadcastsInDim S100x128 (![] : Fin 0 → Fin S100x128.rank)
  reducesTo_S100x128_S_d0_1 : S100x128.ReducesTo [0, 1] S_
  bcast_S_S128x160 : S_.BroadcastsInDim S128x160 (![] : Fin 0 → Fin S128x160.rank)
  reducesTo_S128x160_S_d0_1 : S128x160.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x160 .f32) (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S100x128 1) : IVec S_ 1 :=
  let main_c_5 : IVec S_ 1 := constantI S_ 1 1#1
  let main_v17 : IVec S_ 1 := (fun x v => Host.reduce IntOp.andi x v reducesTo_S100x128_S_d0_1 h_S_) main_v16 main_c_5
  let main_v18 : IVec S_ 1 := andi main_v13 main_v17
  let main_v19 : FVec F S128x160 .f32 := Host.absf main_arg4
  let main_cst_6 : FVec F S_ .f32 := constant S_ .f32 0x7F800000#32
  let main_v20 : FVec F S128x160 .f32 := broadcastInDim S128x160 ![] bcast_S_S128x160 main_cst_6
  let main_v21 : IVec S128x160 1 := cmpf .olt main_v19 main_v20
  let main_c_7 : IVec S_ 1 := constantI S_ 1 1#1
  let main_v22 : IVec S_ 1 := (fun x v => Host.reduce IntOp.andi x v reducesTo_S128x160_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S262144x128 .f32) (main_arg1 : FVec F S262144x32 .f32) (main_arg2 : FVec F S262144x128 .f32) (main_arg3 : FVec F S100x128 .f32) (main_arg4 : FVec F S128x160 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x32 .f32 := Host.absf main_arg1
  let main_cst_0 : FVec F S_ .f32 := constant S_ .f32 0x7F800000#32
  let main_v5 : FVec F S262144x32 .f32 := broadcastInDim S262144x32 ![] bcast_S_S262144x32 main_cst_0
  let main_v6 : IVec S262144x32 1 := cmpf .olt main_v4 main_v5
  let main_c_1 : IVec S_ 1 := constantI S_ 1 1#1
  let main_v7 : IVec S_ 1 := (fun x v => Host.reduce IntOp.andi x v reducesTo_S262144x32_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S100x128 .f32 := Host.absf main_arg3
  let main_cst_4 : FVec F S_ .f32 := constant S_ .f32 0x7F800000#32
  let main_v15 : FVec F S100x128 .f32 := broadcastInDim S100x128 ![] bcast_S_S100x128 main_cst_4
  let main_v16 : IVec S100x128 1 := cmpf .olt main_v14 main_v15
  fn_part1 (F := F) main_arg4 main_arg5 main_arg6 main_arg7 main_arg8 main_arg9 main_v13 main_v16
-- ==== Kernel.lean ====
abbrev S262144x128 : Shape := ⟨2, ![262144, 128]⟩
abbrev S262144x32 : Shape := ⟨2, ![262144, 32]⟩
abbrev S100x128 : Shape := ⟨2, ![100, 128]⟩
abbrev S128x160 : Shape := ⟨2, ![128, 160]⟩
abbrev S128 : Shape := ⟨1, ![128]⟩
abbrev S128x128 : Shape := ⟨2, ![128, 128]⟩
abbrev S128x32 : Shape := ⟨2, ![128, 32]⟩
abbrev S_ : Shape := ⟨0, ![]⟩
abbrev S100 : Shape := ⟨1, ![100]⟩
abbrev S1x100 : Shape := ⟨2, ![1, 100]⟩
abbrev S1x128 : Shape := ⟨2, ![1, 128]⟩
abbrev S3x262144 : Shape := ⟨2, ![3, 262144]⟩
abbrev S4096x128 : Shape := ⟨2, ![4096, 128]⟩
abbrev S4096x32 : Shape := ⟨2, ![4096, 32]⟩
abbrev S3x4096 : Shape := ⟨2, ![3, 4096]⟩
abbrev S32x128 : Shape := ⟨2, ![32, 128]⟩
abbrev S4096 : Shape := ⟨1, ![4096]⟩
abbrev S4096x1 : Shape := ⟨2, ![4096, 1]⟩
abbrev S128x100 : Shape := ⟨2, ![128, 100]⟩
abbrev S4096x100 : Shape := ⟨2, ![4096, 100]⟩
abbrev S1x4096 : Shape := ⟨2, ![1, 4096]⟩

abbrev nBuf : Space → Nat
  | .hbm => 25
  | .vmem => 17
  | .smem => 0
  | _ => 0

abbrev bufTy : (tb : Table) → Fin (tcTables nBuf tb) → BufTy
  | .hbm, ⟨0, _⟩ => ⟨S262144x128, .f32⟩
  | .hbm, ⟨1, _⟩ => ⟨S262144x32, .f32⟩
  | .hbm, ⟨2, _⟩ => ⟨S262144x128, .f32⟩
  | .hbm, ⟨3, _⟩ => ⟨S100x128, .f32⟩
  | .hbm, ⟨4, _⟩ => ⟨S128x160, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .bf16⟩
  | .hbm, ⟨12, _⟩ => ⟨S128x32, .f32⟩
  | .hbm, ⟨13, _⟩ => ⟨S128x32, .bf16⟩
  | .hbm, ⟨14, _⟩ => ⟨S128x128, .bf16⟩
  | .hbm, ⟨15, _⟩ => ⟨S128x128, .bf16⟩
  | .hbm, ⟨16, _⟩ => ⟨S100x128, .bf16⟩
  | .hbm, ⟨17, _⟩ => ⟨S100x128, .f32⟩
  | .hbm, ⟨18, _⟩ => ⟨S_, .f32⟩
  | .hbm, ⟨19, _⟩ => ⟨S100, .f32⟩
  | .hbm, ⟨20, _⟩ => ⟨S1x100, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S3x262144, .f32⟩
  | .local _ .vmem, ⟨0, _⟩ => ⟨S4096x128, .f32⟩
  | .local _ .vmem, ⟨1, _⟩ => ⟨S4096x128, .f32⟩
  | .local _ .vmem, ⟨2, _⟩ => ⟨S4096x32, .f32⟩
  | .local _ .vmem, ⟨3, _⟩ => ⟨S4096x32, .f32⟩
  | .local _ .vmem, ⟨4, _⟩ => ⟨S4096x128, .f32⟩
  | .local _ .vmem, ⟨5, _⟩ => ⟨S4096x128, .f32⟩
  | .local _ .vmem, ⟨6, _⟩ => ⟨S100x128, .bf16⟩
  | .local _ .vmem, ⟨7, _⟩ => ⟨S128x128, .bf16⟩
  | .local _ .vmem, ⟨8, _⟩ => ⟨S128x32, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S1x100, .f32⟩
  | .local _ .vmem, ⟨15, _⟩ => ⟨S3x4096, .f32⟩
  | .local _ .vmem, ⟨16, _⟩ => ⟨S3x4096, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x100 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S3x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S128x160_S128x128_0_0 : S128x160.Slices ![0, 0] S128x128
  bitsLt_bf16_f32 : FTy.bits .bf16 < FTy.bits .f32
  slices_S128x160_S128x32_0_128 : S128x160.Slices ![0, 128] S128x32
  reducesTo_S100x128_S100_d1 : S100x128.ReducesTo [1] S100
  h_S_ : 0 < S_.numel
  shapeCasts_S100_S1x100 : S100.ShapeCasts S1x100
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  inb_S4096x32_S4096x32_0_0 : ∀ a, (![0, 0] : Fin 2 → Nat) a + S4096x32.size a ≤ S4096x32.size a
  h_S4096x32 : 0 < S4096x32.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S1x100_S1x100_0_0 : ∀ a, (![0, 0] : Fin 2 → Nat) a + S1x100.size a ≤ S1x100.size a
  h_S1x100 : 0 < S1x100.numel
  shapeCasts_S1x100_S1x100 : S1x100.ShapeCasts S1x100
  transposes_S128x128_p1_0_S128x128 : S128x128.Transposes [1, 0] S128x128
  transposes_S128x32_p1_0_S32x128 : S128x32.Transposes [1, 0] S32x128
  broadcasts_S1x128_S4096x128 : S1x128.Broadcasts S4096x128
  reduces_S4096x128_S4096 : S4096x128.Reduces [1] S4096
  shapeCasts_S4096_S4096x1 : S4096.ShapeCasts S4096x1
  transposes_S100x128_p1_0_S128x100 : S100x128.Transposes [1, 0] S128x100
  broadcasts_S4096x1_S4096x100 : S4096x1.Broadcasts S4096x100
  broadcasts_S1x100_S4096x100 : S1x100.Broadcasts S4096x100
  reduces_S4096x100_S4096 : S4096x100.Reduces [1] S4096
  inb_S3x4096_S1x4096_0_0 : ∀ a, (![0, 0] : Fin 2 → Nat) a + S1x4096.size a ≤ S3x4096.size a
  h_S1x4096 : 0 < S1x4096.numel
  shapeCasts_S1x4096_S4096 : S1x4096.ShapeCasts S4096
  shapeCasts_S4096_S1x4096 : S4096.ShapeCasts S1x4096
  inb_S3x4096_S1x4096_1_0 : ∀ a, (![1, 0] : Fin 2 → Nat) a + S1x4096.size a ≤ S3x4096.size a
  inb_S3x4096_S1x4096_2_0 : ∀ a, (![2, 0] : Fin 2 → Nat) a + S1x4096.size a ≤ S3x4096.size a
  dot_S4096x128_S128x128_S4096x128_1_0_0_1_n_n_wf : DotDims.WF S4096x128 S128x128 S4096x128 [1] [0] [0] [1] [] []
  dot_S4096x32_S32x128_S4096x128_1_0_0_1_n_n_wf : DotDims.WF S4096x32 S32x128 S4096x128 [1] [0] [0] [1] [] []
  dot_S4096x128_S128x100_S4096x100_1_0_0_1_n_n_wf : DotDims.WF S4096x128 S128x100 S4096x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S262144x32.size a
  hwx0_1 : ∀ i : grid0.Coords, EltTy.bits .f32 = 32 ∨ (Rect.block (s := S262144x32) S4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x128.size a ≤ S100x128.size a
  hwx0_3 : ∀ i : grid0.Coords, EltTy.bits .bf16 = 32 ∨ (Rect.block (s := S100x128) S100x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .bf16 = 32 ∨ (Rect.block (s := S128x32) S128x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x100.size a ≤ S1x100.size a
  hwx0_11 : ∀ i : grid0.Coords, EltTy.bits .f32 = 32 ∨ (Rect.block (s := S1x100) S1x100.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3x4096.size a ≤ S3x262144.size a
  hwx0_12 : ∀ i : grid0.Coords, EltTy.bits .f32 = 32 ∨ (Rect.block (s := S3x262144) S3x4096.size (cc0_transform_12 i) (hinb0_12 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x32_S32x128_S4096x128_1_0_0_1_n_n : DotDims S4096x32 S32x128 S4096x128 where
  lhsContracting := [1]
  rhsContracting := [0]
  lhsNonContracting := [0]
  rhsNonContracting := [1]
  lhsBatch := []
  rhsBatch := []
  wf := dot_S4096x32_S32x128_S4096x128_1_0_0_1_n_n_wf
def dot_S4096x128_S128x100_S4096x100_1_0_0_1_n_n : DotDims S4096x128 S128x100 S4096x100 where
  lhsContracting := [1]
  rhsContracting := [0]
  lhsNonContracting := [0]
  rhsNonContracting := [1]
  lhsBatch := []
  rhsBatch := []
  wf := dot_S4096x128_S128x100_S4096x100_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S100x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x100.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S3x4096.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144x32 : Shape := ⟨2, ![262144, 32]⟩
abbrev S100x128 : Shape := ⟨2, ![100, 128]⟩
abbrev S128x160 : Shape := ⟨2, ![128, 160]⟩
abbrev S128 : Shape := ⟨1, ![128]⟩
abbrev S128x128 : Shape := ⟨2, ![128, 128]⟩
abbrev S262144x160 : Shape := ⟨2, ![262144, 160]⟩
abbrev S160x128 : Shape := ⟨2, ![160, 128]⟩
abbrev S1x128 : Shape := ⟨2, ![1, 128]⟩
abbrev S_ : Shape := ⟨0, ![]⟩
abbrev S262144 : Shape := ⟨1, ![262144]⟩
abbrev S262144x1 : Shape := ⟨2, ![262144, 1]⟩
abbrev S100 : Shape := ⟨1, ![100]⟩
abbrev S1x100 : Shape := ⟨2, ![1, 100]⟩
abbrev S262144x100 : Shape := ⟨2, ![262144, 100]⟩
abbrev S128x100 : Shape := ⟨2, ![128, 100]⟩
abbrev S1x262144 : Shape := ⟨2, ![1, 262144]⟩
abbrev S3x262144 : Shape := ⟨2, ![3, 262144]⟩

abbrev nBuf : Space → Nat
  | .hbm => 87
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x32, .f32⟩
  | .hbm, ⟨2, _⟩ => ⟨S262144x128, .f32⟩
  | .hbm, ⟨3, _⟩ => ⟨S100x128, .f32⟩
  | .hbm, ⟨4, _⟩ => ⟨S128x160, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S262144x160, .f32⟩
  | .hbm, ⟨11, _⟩ => ⟨S160x128, .f32⟩
  | .hbm, ⟨12, _⟩ => ⟨S262144x128, .f32⟩
  | .hbm, ⟨13, _⟩ => ⟨S1x128, .f32⟩
  | .hbm, ⟨14, _⟩ => ⟨S262144x128, .f32⟩
  | .hbm, ⟨15, _⟩ => ⟨S262144x128, .f32⟩
  | .hbm, ⟨16, _⟩ => ⟨S_, .f32⟩
  | .hbm, ⟨17, _⟩ => ⟨S262144x128, .f32⟩
  | .hbm, ⟨18, _⟩ => ⟨S262144x128, .f32⟩
  | .hbm, ⟨19, _⟩ => ⟨S128x128, .f32⟩
  | .hbm, ⟨20, _⟩ => ⟨S262144x128, .f32⟩
  | .hbm, ⟨21, _⟩ => ⟨S1x128, .f32⟩
  | .hbm, ⟨22, _⟩ => ⟨S262144x128, .f32⟩
  | .hbm, ⟨23, _⟩ => ⟨S262144x128, .f32⟩
  | .hbm, ⟨24, _⟩ => ⟨S128x128, .f32⟩
  | .hbm, ⟨25, _⟩ => ⟨S262144x128, .f32⟩
  | .hbm, ⟨26, _⟩ => ⟨S1x128, .f32⟩
  | .hbm, ⟨27, _⟩ => ⟨S262144x128, .f32⟩
  | .hbm, ⟨28, _⟩ => ⟨S262144x128, .f32⟩
  | .hbm, ⟨29, _⟩ => ⟨S_, .f32⟩
  | .hbm, ⟨30, _⟩ => ⟨S262144x128, .f32⟩
  | .hbm, ⟨31, _⟩ => ⟨S262144x128, .f32⟩
  | .hbm, ⟨32, _⟩ => ⟨S128x128, .f32⟩
  | .hbm, ⟨33, _⟩ => ⟨S262144x128, .f32⟩
  | .hbm, ⟨34, _⟩ => ⟨S1x128, .f32⟩
  | .hbm, ⟨35, _⟩ => ⟨S262144x128, .f32⟩
  | .hbm, ⟨36, _⟩ => ⟨S262144x128, .f32⟩
  | .hbm, ⟨37, _⟩ => ⟨S_, .f32⟩
  | .hbm, ⟨38, _⟩ => ⟨S262144x128, .f32⟩
  | .hbm, ⟨39, _⟩ => ⟨S262144x128, .f32⟩
  | .hbm, ⟨40, _⟩ => ⟨S262144x128, .f32⟩
  | .hbm, ⟨41, _⟩ => ⟨S262144x128, .f32⟩
  | .hbm, ⟨42, _⟩ => ⟨S_, .f32⟩
  | .hbm, ⟨43, _⟩ => ⟨S262144, .f32⟩
  | .hbm, ⟨44, _⟩ => ⟨S_, .f32⟩
  | .hbm, ⟨45, _⟩ => ⟨S262144, .f32⟩
  | .hbm, ⟨46, _⟩ => ⟨S262144, .f32⟩
  | .hbm, ⟨47, _⟩ => ⟨S262144x128, .f32⟩
  | .hbm, ⟨48, _⟩ => ⟨S_, .f32⟩
  | .hbm, ⟨49, _⟩ => ⟨S262144, .f32⟩
  | .hbm, ⟨50, _⟩ => ⟨S262144x1, .f32⟩
  | .hbm, ⟨51, _⟩ => ⟨S100x128, .f32⟩
  | .hbm, ⟨52, _⟩ => ⟨S_, .f32⟩
  | .hbm, ⟨53, _⟩ => ⟨S100, .f32⟩
  | .hbm, ⟨54, _⟩ => ⟨S1x100, .f32⟩
  | .hbm, ⟨55, _⟩ => ⟨S262144x100, .f32⟩
  | .hbm, ⟨56, _⟩ => ⟨S262144x100, .f32⟩
  | .hbm, ⟨57, _⟩ => ⟨S262144x100, .f32⟩
  | .hbm, ⟨58, _⟩ => ⟨S128x100, .f32⟩
  | .hbm, ⟨59, _⟩ => ⟨S262144x100, .f32⟩
  | .hbm, ⟨60, _⟩ => ⟨S_, .f32⟩
  | .hbm, ⟨61, _⟩ => ⟨S262144x100, .f32⟩
  | .hbm, ⟨62, _⟩ => ⟨S262144x100, .f32⟩
  | .hbm, ⟨63, _⟩ => ⟨S262144x100, .f32⟩
  | .hbm, ⟨64, _⟩ => ⟨S_, .f32⟩
  | .hbm, ⟨65, _⟩ => ⟨S262144, .f32⟩
  | .hbm, ⟨66, _⟩ => ⟨S_, .f32⟩
  | .hbm, ⟨67, _⟩ => ⟨S262144, .f32⟩
  | .hbm, ⟨68, _⟩ => ⟨S262144, .f32⟩
  | .hbm, ⟨69, _⟩ => ⟨S262144, .f32⟩
  | .hbm, ⟨70, _⟩ => ⟨S_, .f32⟩
  | .hbm, ⟨71, _⟩ => ⟨S262144, .f32⟩
  | .hbm, ⟨72, _⟩ => ⟨S262144, .f32⟩
  | .hbm, ⟨73, _⟩ => ⟨S_, .f32⟩
  | .hbm, ⟨74, _⟩ => ⟨S262144, .f32⟩
  | .hbm, ⟨75, _⟩ => ⟨S262144, .f32⟩
  | .hbm, ⟨76, _⟩ => ⟨S_, .f32⟩
  | .hbm, ⟨77, _⟩ => ⟨S262144, .f32⟩
  | .hbm, ⟨78, _⟩ => ⟨S262144, .f32⟩
  | .hbm, ⟨79, _⟩ => ⟨S_, .f32⟩
  | .hbm, ⟨80, _⟩ => ⟨S262144, .f32⟩
  | .hbm, ⟨81, _⟩ => ⟨S262144, .f32⟩
  | .hbm, ⟨82, _⟩ => ⟨S262144, .f32⟩
  | .hbm, ⟨83, _⟩ => ⟨S1x262144, .f32⟩
  | .hbm, ⟨84, _⟩ => ⟨S1x262144, .f32⟩
  | .hbm, ⟨85, _⟩ => ⟨S1x262144, .f32⟩
  | .hbm, ⟨86, _⟩ => ⟨S3x262144, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_cst : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_cst : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call2_cst : Ref sig .tc := ⟨.hbm, 37, rfl⟩
abbrev main_call2_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_cst_0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_1 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_3 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_cst_5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]

class Facts₀ : Prop where
  concatenates_S262144x128_S262144x32_S262144x160_d1 : Shape.Concatenates [S262144x128, S262144x32] S262144x160 1
  transposes_S128x160_S160x128_1_0 : S128x160.Transposes [1, 0] S160x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  transposes_S128x128_S128x128_1_0 : S128x128.Transposes [1, 0] S128x128
  reducesTo_S262144x128_S262144_d1 : S262144x128.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  reducesTo_S100x128_S100_d1 : S100x128.ReducesTo [1] S100
  bcast_S100_S1x100_1 : S100.BroadcastsInDim S1x100 (![1] : Fin 1 → Fin S1x100.rank)
  bcast_S262144x1_S262144x100_0_1 : S262144x1.BroadcastsInDim S262144x100 (![0, 1] : Fin 2 → Fin S262144x100.rank)
  bcast_S1x100_S262144x100_0_1 : S1x100.BroadcastsInDim S262144x100 (![0, 1] : Fin 2 → Fin S262144x100.rank)
  transposes_S100x128_S128x100_1_0 : S100x128.Transposes [1, 0] S128x100
  bcast_S_S262144x100 : S_.BroadcastsInDim S262144x100 (![] : Fin 0 → Fin S262144x100.rank)
  reducesTo_S262144x100_S262144_d1 : S262144x100.ReducesTo [1] S262144
  bcast_S262144_S1x262144_1 : S262144.BroadcastsInDim S1x262144 (![1] : Fin 1 → Fin S1x262144.rank)
  concatenates_S1x262144_S1x262144_S1x262144_S3x262144_d0 : Shape.Concatenates [S1x262144, S1x262144, S1x262144] S3x262144 0
  dot_S262144x160_S160x128_S262144x128_1_0_0_1_n_n_wf : DotDims.WF S262144x160 S160x128 S262144x128 [1] [0] [0] [1] [] []
  dot_S262144x128_S128x128_S262144x128_1_0_0_1_n_n_wf : DotDims.WF S262144x128 S128x128 S262144x128 [1] [0] [0] [1] [] []
  dot_S262144x128_S128x100_S262144x100_1_0_0_1_n_n_wf : DotDims.WF S262144x128 S128x100 S262144x100 [1] [0] [0] [1] [] []

variable [Facts₀]

def dot_S262144x160_S160x128_S262144x128_1_0_0_1_n_n : DotDims S262144x160 S160x128 S262144x128 where
  lhsContracting := [1]
  rhsContracting := [0]
  lhsNonContracting := [0]
  rhsNonContracting := [1]
  lhsBatch := []
  rhsBatch := []
  wf := dot_S262144x160_S160x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x100_S262144x100_1_0_0_1_n_n : DotDims S262144x128 S128x100 S262144x100 where
  lhsContracting := [1]
  rhsContracting := [0]
  lhsNonContracting := [0]
  rhsNonContracting := [1]
  lhsBatch := []
  rhsBatch := []
  wf := dot_S262144x128_S128x100_S262144x100_1_0_0_1_n_n_wf

class Facts : Prop extends Facts₀ where

variable [Facts]
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«118929_j55027120996868_2_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.LibCols.lean ====
/-
  A column of per-row numbers against a matrix, read entry by entry. A vector of `a` entries made a column `[a, 1]`
  reads its entry `p` at `(p, 0)`; a column repeated across `b` columns reads its entry `p` at `(p, c)`. Both in the
  vector unit's spelling (a shape cast, a broadcast) and in the host's (two `broadcast_in_dim`s). These are the forms
  a keep-dimensions row reduction takes on its way back to the matrix it was reduced from.
-/
import Idealize.ShloMosaic.Lib.Pipeline.Value
import Idealize.ShloMosaic.Lib.ValueIdx
import Idealize.ShloMosaic.Lib.ValueLayout

namespace Cert.LibCols

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's column: an `[a]` vector broadcast along axis 0 into `[a, 1]` reads, at `(p, u)`, the vector's entry `p`. -/
theorem inDim_a_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's repeated column: an `[a, 1]` array broadcast along both axes into `[a, b]` reads, at `(p, c)`, entry `p`. -/
theorem inDim_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibCols
-- ==== Proof.RowSpec.lean ====
/-
  One sample's curiosity reward as a function of its rows, on the extended reals.

  A sample has a state row `x` (128 entries), an action row `a` (32 entries) and a next-state row `n` (128 entries).
  The predictor is a two-layer perceptron: a hidden layer `max (x · Wsᵀ + a · Waᵀ + b₁) 0` and an output layer
  `h · W₂ᵀ + b₂`; the feature extractor is one rectified layer `max (z · Wfᵀ + bf) 0`. The prediction error is the mean over
  the 128 features of the squared difference between the features of the predicted and of the actual next state; the
  novelty is `min 1 (√(max (min_j d²_j) 0) / 10)`, where `d²_j = ‖fa‖² + ‖s_j‖² − 2 fa · s_j` runs over the 100 remembered
  rows `s_j`; the reward is half the error plus half the novelty.

  The weights enter as plain functions of their coordinates, so that the same definitions read a block of a staged
  array and a whole array. The float constants stay the patterns the programs print: the same pattern on both sides
  is never evaluated.
-/
import Idealize.ShloMosaic.PureOps.Ideal

noncomputable section

namespace Cert.Curiosity

open Idealize.ShloMosaic

/-- Everything a row's reward depends on besides the row itself. -/
structure Weights where
  /-- the first layer's weights against the state, at (output, input) -/
  ws : Fin 128 → Fin 128 → EReal
  /-- the first layer's weights against the action, at (output, input) -/
  wa : Fin 128 → Fin 32 → EReal
  b1 : Fin 128 → EReal
  w2 : Fin 128 → Fin 128 → EReal
  b2 : Fin 128 → EReal
  wf : Fin 128 → Fin 128 → EReal
  bf : Fin 128 → EReal
  /-- the remembered rows, at (row, feature) -/
  sn : Fin 100 → Fin 128 → EReal
  /-- each remembered row's squared norm -/
  s2 : Fin 100 → EReal

/-- An affine layer: entry `q` of `z · Wᵀ + b`. -/
def affine (z : Fin 128 → EReal) (w : Fin 128 → Fin 128 → EReal) (b : Fin 128 → EReal) (q : Fin 128) : EReal :=
  (∑ k : Fin 128, z k * w q k) + b q

/-- The hidden layer: entry `q` of `max (x · Wsᵀ + a · Waᵀ + b₁) 0`. -/
def hiddenLayer (P : Weights) (x : Fin 128 → EReal) (a : Fin 32 → EReal) (q : Fin 128) : EReal :=
  max (((∑ k : Fin 128, x k * P.ws q k) + (∑ k : Fin 32, a k * P.wa q k)) + P.b1 q) (Ideal.ofBits .f32 0x00000000#32)

/-- The feature extractor: entry `q` of `max (z · Wfᵀ + bf) 0`. -/
def feature (P : Weights) (z : Fin 128 → EReal) (q : Fin 128) : EReal :=
  max (affine z P.wf P.bf q) (Ideal.ofBits .f32 0x00000000#32)

/-- The mean over the features of the squared difference. -/
def meanSq (fp fa : Fin 128 → EReal) : EReal :=
  Ideal.div (∑ k : Fin 128, (fp k - fa k) * (fp k - fa k)) (Ideal.ofBits .f32 0x43000000#32)

/-- The squared distance to remembered row `j`, by the expansion `‖fa‖² + ‖s_j‖² − 2 fa · s_j`. -/
def dist2 (P : Weights) (fa : Fin 128 → EReal) (j : Fin 100) : EReal :=
  ((∑ k : Fin 128, fa k * fa k) + P.s2 j) - Ideal.ofBits .f32 0x40000000#32 * (∑ k : Fin 128, fa k * P.sn j k)

/-- The novelty: the distance to the nearest remembered row, over ten, capped at one. -/
def nearest (P : Weights) (fa : Fin 128 → EReal) : EReal :=
  min (Ideal.ofBits .f32 0x3F800000#32)
    (Ideal.div (Ideal.sqrt (max ((Finset.univ : Finset (Fin 100)).fold min (Ideal.ofBits .f32 0x7F800000#32) (fun j => dist2 P fa j))
      (Ideal.ofBits .f32 0x00000000#32))) (Ideal.ofBits .f32 0x41200000#32))

/-- The prediction error of a sample. -/
def predErr (P : Weights) (x : Fin 128 → EReal) (a : Fin 32 → EReal) (n : Fin 128 → EReal) : EReal :=
  meanSq (feature P (affine (hiddenLayer P x a) P.w2 P.b2)) (feature P n)

/-- The novelty of a sample. -/
def novelty (P : Weights) (n : Fin 128 → EReal) : EReal := nearest P (feature P n)

/-- The three numbers a sample gets: its prediction error, its novelty, and half their sum. -/
def outputs (P : Weights) (x : Fin 128 → EReal) (a : Fin 32 → EReal) (n : Fin 128 → EReal) : Fin 3 → EReal
  | ⟨0, _⟩ => predErr P x a n
  | ⟨1, _⟩ => novelty P n
  | ⟨_ + 2, _⟩ => predErr P x a n * Ideal.ofBits .f32 0x3F000000#32 + novelty P n * Ideal.ofBits .f32 0x3F000000#32

/-- A sum over 160 columns is the sum over the first 128 plus the sum over the last 32. -/
theorem sum_160 (g : Fin 160 → EReal) :
    ∑ k : Fin 160, g k = (∑ k : Fin 128, g ⟨k.val, by have := k.isLt; omega⟩) + ∑ k : Fin 32, g ⟨128 + k.val, by have := k.isLt; omega⟩ :=
  Fin.sum_univ_add (a := 128) (b := 32) g

end Cert.Curiosity

end
-- ==== Proof.KernelRow.lean ====
/-
  The kernel body's stored values, read one entry at a time on the extended reals.

  The body works on a block of 4096 samples. Row `r` of each stored value depends only on row `r` of the three
  streamed blocks (state, action, next state) and on the resident weights: every matrix product contracts along a
  row, every reduction runs along a row, and the remaining operations are pointwise or repeat a row or a column.
  So entry `r` of the error, of the novelty and of the reward is the per-sample function of `Cert.Curiosity` applied to
  the three rows; rounding to sixteen bits on the way into a product is the identity at the exact values.
-/
import proofs.«118929_j55027120996868_2_alg».proof.Proof.Gen.KernelIdeal.Skeleton
import proofs.«118929_j55027120996868_2_alg».proof.Proof.LibRows
import proofs.«118929_j55027120996868_2_alg».proof.Proof.LibCols
import proofs.«118929_j55027120996868_2_alg».proof.Proof.RowSpec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Rows

open Cert.KernelIdeal Cert.KernelIdeal.Gen Idealize.ShloMosaic Idealize.ShloMosaic.ValueIdx Cert.Curiosity

/-! ## Single operations at an entry -/

theorem sqrt_apply {s : Shape} (x : FVec Ideal s .f32) (i : s.Idx) : sqrt x i = Ideal.sqrt (x i) := rfl

theorem scalar_ofBits (b : BitVec 32) : Scalar.ofBits (F := Ideal) .f32 b = Ideal.ofBits .f32 b := rfl

/-- A product of a block of 4096 rows with a 128 × 128 matrix, into zero. -/
theorem mm128 (l : FVec Ideal S4096x128 .bf16) (r : FVec Ideal S128x128 .bf16) (p : Fin 4096) (q : Fin 128) :
    matmul dot_S4096x128_S128x128_S4096x128_1_0_0_1_n_n none l r (constant S4096x128 .f32 0x00000000#32) (ix2 p q)
      = ∑ i : Fin 128, l (ix2 p i) * r (ix2 i q) :=
  Cert.LibRows.matmul_plain_apply _ rfl none l r p q

/-- A product of a block of 4096 rows of 32 with a 32 × 128 matrix, into zero. -/
theorem mm32 (l : FVec Ideal S4096x32 .bf16) (r : FVec Ideal S32x128 .bf16) (p : Fin 4096) (q : Fin 128) :
    matmul dot_S4096x32_S32x128_S4096x128_1_0_0_1_n_n none l r (constant S4096x128 .f32 0x00000000#32) (ix2 p q)
      = ∑ i : Fin 32, l (ix2 p i) * r (ix2 i q) :=
  Cert.LibRows.matmul_plain_apply _ rfl none l r p q

/-- A product of a block of 4096 rows with a 128 × 100 matrix, into zero. -/
theorem mm100 (l : FVec Ideal S4096x128 .bf16) (r : FVec Ideal S128x100 .bf16) (p : Fin 4096) (q : Fin 100) :
    matmul dot_S4096x128_S128x100_S4096x100_1_0_0_1_n_n none l r (constant S4096x100 .f32 0x00000000#32) (ix2 p q)
      = ∑ i : Fin 128, l (ix2 p i) * r (ix2 i q) :=
  Cert.LibRows.matmul_plain_apply _ rfl none l r p q

/-! ## A transposed matrix, a row sum and a row minimum as functions of their own -/

/-- A matrix read with its two coordinates exchanged. -/
def swap {a b : Nat} {α : Type} (w : (⟨2, ![a, b]⟩ : Shape).Idx → α) : (⟨2, ![b, a]⟩ : Shape).Idx → α :=
  fun y => w (ix2 (n0 := a) (n1 := b) (y 1) (y 0))

theorem swap_apply {a b : Nat} {α : Type} (w : (⟨2, ![a, b]⟩ : Shape).Idx → α) (j : Fin b) (i : Fin a) :
    swap w (ix2 j i) = w (ix2 i j) := rfl

/-- The transposition the body applies to a weight matrix is that exchange. -/
theorem transpose_eq_swap {a b : Nat} {α : Type} (w : (⟨2, ![a, b]⟩ : Shape).Idx → α)
    (h : (⟨2, ![a, b]⟩ : Shape).Transposes [1, 0] ⟨2, ![b, a]⟩) : transpose ⟨2, ![b, a]⟩ [1, 0] w h = swap w := by
  funext y
  obtain ⟨j, i, rfl⟩ : ∃ (j : Fin b) (i : Fin a), y = ix2 j i := ⟨y 0, y 1, eq_ix2 y⟩
  exact transpose_ix2_apply w h j i

/-- The sums of the rows of a 4096 × 128 block. -/
def rowSum (src : FVec Ideal S4096x128 .f32) : FVec Ideal S4096 .f32 := fun j => ∑ k : Fin 128, src (ix2 (n0 := 4096) (j 0) k)

theorem rowSum_apply (src : FVec Ideal S4096x128 .f32) (r : Fin 4096) : rowSum src (ix1 r) = ∑ k : Fin 128, src (ix2 r k) := rfl

/-- The minima of the rows of a 4096 × 100 block, folded from `+∞`. -/
def rowMin (src : FVec Ideal S4096x100 .f32) : FVec Ideal S4096 .f32 :=
  fun j => (Finset.univ : Finset (Fin 100)).fold min (Ideal.ofBits .f32 0x7F800000#32) (fun c => src (ix2 (n0 := 4096) (j 0) c))

theorem rowMin_apply (src : FVec Ideal S4096x100 .f32) (r : Fin 4096) :
    rowMin src (ix1 r) = (Finset.univ : Finset (Fin 100)).fold min (Ideal.ofBits .f32 0x7F800000#32) (fun c => src (ix2 r c)) := rfl

/-- The reduced index `r` with column `k` put back is `(r, k)`. -/
theorem lift_row {n : Nat} (h : (⟨2, ![4096, n]⟩ : Shape).Reduces [1] S4096) (r : Fin 4096)
    (k : Fin ((⟨2, ![4096, n]⟩ : Shape).size 1)) : h.lift (ix1 r) k = ix2 r (⟨k.val, k.isLt⟩ : Fin n) := by
  funext c; apply Fin.ext
  match c with
  | ⟨0, _⟩ => rfl
  | ⟨1, _⟩ => rfl

/-- A sum along the rows of a 4096 × 128 block is `rowSum`. -/
theorem addReduction_eq_rowSum (src : FVec Ideal S4096x128 .f32) (h : S4096x128.Reduces [1] S4096)
    (hφ : FTy.f32 = FTy.f32 ∨ FTy.f32 = FTy.bf16) (hacc : (0x00000000#32 : BitVec FTy.f32.bits) = 0x00000000#32) :
    multiReduction .add [1] S4096 src 0x00000000#32 h hφ hacc = rowSum src := by
  funext j
  obtain ⟨r, rfl⟩ : ∃ r : Fin 4096, j = ix1 r := ⟨j 0, eq_ix1 j⟩
  refine (Ideal.multiReduction_add_single src 0x00000000#32 h hφ hacc (ix1 r)).trans ?_
  exact Finset.sum_congr rfl fun k _ => congrArg src (lift_row h r k)

/-- A minimum along the rows of a 4096 × 100 block, started from `+∞`, is `rowMin`: the fold of `min` over the columns,
    in any order. -/
theorem minReduction_eq_rowMin (src : FVec Ideal S4096x100 .f32) (h : S4096x100.Reduces [1] S4096)
    (hφ : FTy.f32 = FTy.f32 ∨ FTy.f32 = FTy.bf16) (hacc : (0x7F800000#32 : BitVec FTy.f32.bits) = 0x7F800000#32) :
    multiReduction .minimumf [1] S4096 src 0x7F800000#32 h hφ hacc = rowMin src := by
  funext j
  obtain ⟨r, rfl⟩ : ∃ r : Fin 4096, j = ix1 r := ⟨j 0, eq_ix1 j⟩
  refine ((multiReduction_minimumf_eq_fold src 0x7F800000#32 h hφ hacc (ix1 r)).trans
    (h.fold_filter_drop_single _ _ src (ix1 r))).trans ?_
  have hf : (src ∘ h.lift (ix1 r)) = fun c : Fin 100 => src (ix2 r c) := funext fun k => congrArg src (lift_row h r k)
  rw [hf]
  rfl

/-! ## The stored values at a row -/

section Payloads

variable (P : Weights)

/-- The hidden layer's block at `(r, q)` is the hidden layer of row `r`. -/
theorem hidden_apply (v0 : FVec Ideal S4096x128 .f32) (v1 : FVec Ideal S4096x32 .f32) (v3 : FVec Ideal S128x128 .bf16)
    (v5 : FVec Ideal S128x32 .bf16) (v7 : FVec Ideal S1x128 .f32)
    (hws : ∀ q k, v3 (ix2 q k) = P.ws q k) (hwa : ∀ q k, v5 (ix2 q k) = P.wa q k)
    (hb1 : ∀ q, v7 (ix2 (0 : Fin 1) q) = P.b1 q) (r : Fin 4096) (q : Fin 128) :
    k0_pay10 (F := Ideal) v0 v1 v3 v5 v7 (ix2 r q) = hiddenLayer P (fun k => v0 (ix2 r k)) (fun k => v1 (ix2 r k)) q := by
  unfold k0_pay10 hiddenLayer
  dsimp only
  rw [shapeCast_self, shapeCast_self, shapeCast_self, transpose_eq_swap, transpose_eq_swap]
  simp only [maximumf_apply, addf_apply, broadcast_apply, mm128, mm32, swap_apply, truncf_apply,
    broadcastTo_1b_ab_apply, scalar_ofBits, hws, hwa, hb1]

/-- The actual next state's features at `(r, q)` are the features of row `r`. -/
theorem feature_apply (v2 : FVec Ideal S4096x128 .f32) (v14 : FVec Ideal S128x128 .bf16) (v16 : FVec Ideal S1x128 .f32)
    (hwf : ∀ q k, v14 (ix2 q k) = P.wf q k) (hbf : ∀ q, v16 (ix2 (0 : Fin 1) q) = P.bf q) (r : Fin 4096) (q : Fin 128) :
    k0_pay11 (F := Ideal) v2 v14 v16 (ix2 r q) = feature P (fun k => v2 (ix2 r k)) q := by
  unfold k0_pay11 feature affine
  dsimp only
  rw [transpose_eq_swap]
  simp only [maximumf_apply, addf_apply, broadcast_apply, mm128, swap_apply, truncf_apply,
    broadcastTo_1b_ab_apply, scalar_ofBits, hwf, hbf]

/-- The prediction error at row `r`, from row `r` of the hidden layer's block and of the next state. -/
theorem err_apply (v2 : FVec Ideal S4096x128 .f32) (v10 : FVec Ideal S128x128 .bf16) (v12 : FVec Ideal S1x128 .f32)
    (v14 : FVec Ideal S128x128 .bf16) (v16 : FVec Ideal S1x128 .f32) (v31 : FVec Ideal S4096x128 .f32)
    (hw2 : ∀ q k, v10 (ix2 q k) = P.w2 q k) (hb2 : ∀ q, v12 (ix2 (0 : Fin 1) q) = P.b2 q)
    (hwf : ∀ q k, v14 (ix2 q k) = P.wf q k) (hbf : ∀ q, v16 (ix2 (0 : Fin 1) q) = P.bf q) (r : Fin 4096) :
    k0_pay12 (F := Ideal) v2 v10 v12 v14 v16 v31 (ix1 r)
      = meanSq (feature P (affine (fun k => v31 (ix2 r k)) P.w2 P.b2)) (feature P (fun k => v2 (ix2 r k))) := by
  unfold k0_pay12
  dsimp only
  rw [addReduction_eq_rowSum, transpose_eq_swap v10, transpose_eq_swap v14]
  simp only [divf_apply, broadcast_apply, scalar_ofBits, rowSum_apply, mulf_apply, subf_apply,
    feature_apply P v2 v14 v16 hwf hbf, maximumf_apply, addf_apply, mm128, swap_apply, truncf_apply,
    broadcastTo_1b_ab_apply, hw2, hb2, hwf, hbf, meanSq, feature, affine]

/-- The novelty at row `r`, from row `r` of the next state. -/
theorem nov_apply (v2 : FVec Ideal S4096x128 .f32) (v14 : FVec Ideal S128x128 .bf16) (v16 : FVec Ideal S1x128 .f32)
    (v18 : FVec Ideal S100x128 .bf16) (v20 : FVec Ideal S1x100 .f32)
    (hwf : ∀ q k, v14 (ix2 q k) = P.wf q k) (hbf : ∀ q, v16 (ix2 (0 : Fin 1) q) = P.bf q)
    (hsn : ∀ j k, v18 (ix2 j k) = P.sn j k) (hs2 : ∀ j, v20 (ix2 (0 : Fin 1) j) = P.s2 j) (r : Fin 4096) :
    k0_pay13 (F := Ideal) v2 v14 v16 v18 v20 (ix1 r) = nearest P (feature P (fun k => v2 (ix2 r k))) := by
  unfold k0_pay13
  dsimp only
  rw [minReduction_eq_rowMin, addReduction_eq_rowSum, transpose_eq_swap v18]
  simp only [minimumf_apply, broadcast_apply, scalar_ofBits, divf_apply, sqrt_apply, maximumf_apply, rowMin_apply,
    subf_apply, addf_apply, mulf_apply, Cert.LibCols.broadcastTo_a1_ab_apply, Cert.LibCols.shapeCast_a_a1_apply,
    broadcastTo_1b_ab_apply, rowSum_apply, mm100, swap_apply, truncf_apply,
    feature_apply P v2 v14 v16 hwf hbf, hsn, hs2, nearest, dist2]

/-- A vector of 4096 entries stored as one row reads its entry `r` at `(0, r)`. -/
theorem pay1_apply (v55 : FVec Ideal S4096 .f32) (u : Fin 1) (r : Fin 4096) :
    k0_pay1 (F := Ideal) v55 (ix2 u r) = v55 (ix1 r) := by
  unfold k0_pay1
  exact shapeCast_a_1a_apply v55 _ u r

theorem pay2_apply (v75 : FVec Ideal S4096 .f32) (u : Fin 1) (r : Fin 4096) :
    k0_pay2 (F := Ideal) v75 (ix2 u r) = v75 (ix1 r) := by
  unfold k0_pay2
  exact shapeCast_a_1a_apply v75 _ u r

/-- The reward's row: half the error plus half the novelty. -/
theorem pay3_apply (v55 v75 : FVec Ideal S4096 .f32) (u : Fin 1) (r : Fin 4096) :
    k0_pay3 (F := Ideal) v55 v75 (k0_pay14 (F := Ideal)) (ix2 u r)
      = v55 (ix1 r) * Ideal.ofBits .f32 0x3F000000#32 + v75 (ix1 r) * Ideal.ofBits .f32 0x3F000000#32 := by
  unfold k0_pay3 k0_pay14
  dsimp only
  rw [shapeCast_a_1a_apply]
  simp only [addf_apply, mulf_apply, broadcast_apply, scalar_ofBits]

end Payloads

end Cert.KernelIdeal.Rows

end
-- ==== Proof.KernelOut.lean ====
/-
  The block the kernel body leaves in the output's staging buffer, read at an entry.

  The body stores three rows of 4096 numbers into a 3 × 4096 buffer: the prediction errors into row 0, the novelties
  into row 1, the rewards into row 2. The three rows tile the buffer, so entry `(c, r)` of what the body leaves is entry `r`
  of the row stored at `c`, and that is output `c` of sample `r` of the block.
-/
import proofs.«118929_j55027120996868_2_alg».proof.Proof.Gen.KernelIdeal.Frame
import proofs.«118929_j55027120996868_2_alg».proof.Proof.KernelRow

noncomputable section

namespace Cert.KernelIdeal.Rows

open Cert.KernelIdeal Cert.KernelIdeal.Gen Idealize.ShloMosaic Idealize.ShloMosaic.ValueIdx Cert.Curiosity

theorem hz : (![0, 0] : Fin 2 → Nat) = fun _ => 0 := funext fun a => by fin_cases a <;> rfl

/-! ## The three stored rows -/

theorem emb_row0 (r : Fin 4096) : r0_7.emb (ix2 (0 : Fin 1) r) = ix2 (0 : Fin 3) r := by
  funext a; apply Fin.ext
  match a with
  | ⟨0, _⟩ => rfl
  | ⟨1, _⟩ => show 0 + 1 * r.val = r.val; omega

theorem emb_row1 (r : Fin 4096) : r0_8.emb (ix2 (0 : Fin 1) r) = ix2 (1 : Fin 3) r := by
  funext a; apply Fin.ext
  match a with
  | ⟨0, _⟩ => rfl
  | ⟨1, _⟩ => show 0 + 1 * r.val = r.val; omega

theorem emb_row2 (r : Fin 4096) : r0_9.emb (ix2 (0 : Fin 1) r) = ix2 (2 : Fin 3) r := by
  funext a; apply Fin.ext
  match a with
  | ⟨0, _⟩ => rfl
  | ⟨1, _⟩ => show 0 + 1 * r.val = r.val; omega

theorem row0_not_mem_row2 (r : Fin 4096) : ix2 (0 : Fin 3) r ∉ r0_9.set := by
  rw [Rect.mem_set_unit]; intro h
  have h0 : (2 : Nat) ≤ 0 := (h 0).1
  omega

theorem row0_not_mem_row1 (r : Fin 4096) : ix2 (0 : Fin 3) r ∉ r0_8.set := by
  rw [Rect.mem_set_unit]; intro h
  have h0 : (1 : Nat) ≤ 0 := (h 0).1
  omega

theorem row1_not_mem_row2 (r : Fin 4096) : ix2 (1 : Fin 3) r ∉ r0_9.set := by
  rw [Rect.mem_set_unit]; intro h
  have h0 : (2 : Nat) ≤ 1 := (h 0).1
  omega

/-- What three row stores (the last first) leave at row 2, row 1 and row 0. -/
theorem canon_row2 (p3 p2 p1 : Vec Ideal S1x4096 .f32) (r : Fin 4096) :
    View.canon ([⟨r0_9, p3⟩, ⟨r0_8, p2⟩, ⟨r0_7, p1⟩] : List (View.Piece (Elt Ideal) S3x4096 .f32)) (ix2 (2 : Fin 3) r)
      = p3 (ix2 (0 : Fin 1) r) := by
  rw [← emb_row2 r]; exact View.canon_cons_emb r0_9 p3 _ (ix2 (0 : Fin 1) r)

theorem canon_row1 (p3 p2 p1 : Vec Ideal S1x4096 .f32) (r : Fin 4096) :
    View.canon ([⟨r0_9, p3⟩, ⟨r0_8, p2⟩, ⟨r0_7, p1⟩] : List (View.Piece (Elt Ideal) S3x4096 .f32)) (ix2 (1 : Fin 3) r)
      = p2 (ix2 (0 : Fin 1) r) := by
  refine (View.canon_cons_of_not_mem ⟨r0_9, p3⟩ [⟨r0_8, p2⟩, ⟨r0_7, p1⟩] (row1_not_mem_row2 r)).trans ?_
  rw [← emb_row1 r]
  exact View.canon_cons_emb r0_8 p2 _ (ix2 (0 : Fin 1) r)

theorem canon_row0 (p3 p2 p1 : Vec Ideal S1x4096 .f32) (r : Fin 4096) :
    View.canon ([⟨r0_9, p3⟩, ⟨r0_8, p2⟩, ⟨r0_7, p1⟩] : List (View.Piece (Elt Ideal) S3x4096 .f32)) (ix2 (0 : Fin 3) r)
      = p1 (ix2 (0 : Fin 1) r) := by
  refine (View.canon_cons_of_not_mem ⟨r0_9, p3⟩ [⟨r0_8, p2⟩, ⟨r0_7, p1⟩] (row0_not_mem_row2 r)).trans ?_
  refine (View.canon_cons_of_not_mem ⟨r0_8, p2⟩ [⟨r0_7, p1⟩] (row0_not_mem_row1 r)).trans ?_
  rw [← emb_row0 r]
  exact View.canon_cons_emb r0_7 p1 _ (ix2 (0 : Fin 1) r)

/-! ## The weights as loaded -/

theorem pay4_eq (v : Vec Ideal S128x128 .bf16) : k0_pay4 (F := Ideal) v = v := by unfold k0_pay4; exact shapeCast_self v _
theorem pay5_eq (v : Vec Ideal S1x128 .f32) : k0_pay5 (F := Ideal) v = v := by unfold k0_pay5; exact shapeCast_self v _
theorem pay6_eq (v : Vec Ideal S128x128 .bf16) : k0_pay6 (F := Ideal) v = v := by unfold k0_pay6; exact shapeCast_self v _
theorem pay7_eq (v : Vec Ideal S1x128 .f32) : k0_pay7 (F := Ideal) v = v := by unfold k0_pay7; exact shapeCast_self v _
theorem pay8_eq (v : Vec Ideal S100x128 .bf16) : k0_pay8 (F := Ideal) v = v := by unfold k0_pay8; exact shapeCast_self v _
theorem pay9_eq (v : Vec Ideal S1x100 .f32) : k0_pay9 (F := Ideal) v = v := by unfold k0_pay9; exact shapeCast_self v _

/-! ## The block at an entry -/

/-- Entry `(c, r)` of what the body leaves in the output's buffer is output `c` of the sample whose rows are row `r` of the
    three streamed blocks, under the weights the resident blocks hold. -/
theorem out_apply (P : Weights) (x0 : Vec Ideal S4096x128 .f32) (x1 : Vec Ideal S4096x32 .f32) (x2 : Vec Ideal S4096x128 .f32)
    (x3 : Vec Ideal S100x128 .bf16) (x4 : Vec Ideal S128x128 .bf16) (x5 : Vec Ideal S128x32 .bf16) (x6 : Vec Ideal S1x128 .f32)
    (x7 : Vec Ideal S128x128 .bf16) (x8 : Vec Ideal S1x128 .f32) (x9 : Vec Ideal S128x128 .bf16) (x10 : Vec Ideal S1x128 .f32)
    (x11 : Vec Ideal S1x100 .f32)
    (hws : ∀ q k, x4 (ix2 q k) = P.ws q k) (hwa : ∀ q k, x5 (ix2 q k) = P.wa q k) (hb1 : ∀ q, x6 (ix2 (0 : Fin 1) q) = P.b1 q)
    (hw2 : ∀ q k, x7 (ix2 q k) = P.w2 q k) (hb2 : ∀ q, x8 (ix2 (0 : Fin 1) q) = P.b2 q)
    (hwf : ∀ q k, x9 (ix2 q k) = P.wf q k) (hbf : ∀ q, x10 (ix2 (0 : Fin 1) q) = P.bf q)
    (hsn : ∀ j k, x3 (ix2 j k) = P.sn j k) (hs2 : ∀ j, x11 (ix2 (0 : Fin 1) j) = P.s2 j)
    (c : Fin 3) (r : Fin 4096) :
    out0_12 (F := Ideal) x0 x1 x2 x3 x4 x5 x6 x7 x8 x9 x10 x11 (ix2 c r)
      = outputs P (fun k => x0 (ix2 r k)) (fun k => x1 (ix2 r k)) (fun k => x2 (ix2 r k)) c := by
  unfold out0_12
  simp only [View.ld_unit_zero (S := S4096x128) hz, View.ld_unit_zero (S := S4096x32) hz, View.ld_unit_zero (S := S128x128) hz,
    View.ld_unit_zero (S := S128x32) hz, View.ld_unit_zero (S := S1x128) hz, View.ld_unit_zero (S := S100x128) hz,
    View.ld_unit_zero (S := S1x100) hz, pay4_eq, pay5_eq, pay6_eq, pay7_eq, pay8_eq, pay9_eq]
  have herr : ∀ r : Fin 4096, k0_pay12 (F := Ideal) x2 x7 x8 x9 x10 (k0_pay10 x0 x1 x4 x5 x6) (ix1 r)
      = predErr P (fun k => x0 (ix2 r k)) (fun k => x1 (ix2 r k)) (fun k => x2 (ix2 r k)) := fun r => by
    rw [err_apply P x2 x7 x8 x9 x10 _ hw2 hb2 hwf hbf r]
    unfold predErr
    exact congrArg (fun z => meanSq (feature P (affine z P.w2 P.b2)) (feature P fun k => x2 (ix2 r k)))
      (funext fun k => hidden_apply P x0 x1 x4 x5 x6 hws hwa hb1 r k)
  have hnov : ∀ r : Fin 4096, k0_pay13 (F := Ideal) x2 x9 x10 x3 x11 (ix1 r) = novelty P (fun k => x2 (ix2 r k)) := fun r =>
    nov_apply P x2 x9 x10 x3 x11 hwf hbf hsn hs2 r
  match c with
  | ⟨0, _⟩ =>
    refine (canon_row0 _ _ _ r).trans ?_
    rw [pay1_apply, herr]
    rfl
  | ⟨1, _⟩ =>
    refine (canon_row1 _ _ _ r).trans ?_
    rw [pay2_apply, hnov]
    rfl
  | ⟨2, _⟩ =>
    refine (canon_row2 _ _ _ r).trans ?_
    rw [pay3_apply, herr, hnov]
    rfl

/-- The same at any index of the buffer. -/
theorem out_apply' (P : Weights) (x0 : Vec Ideal S4096x128 .f32) (x1 : Vec Ideal S4096x32 .f32) (x2 : Vec Ideal S4096x128 .f32)
    (x3 : Vec Ideal S100x128 .bf16) (x4 : Vec Ideal S128x128 .bf16) (x5 : Vec Ideal S128x32 .bf16) (x6 : Vec Ideal S1x128 .f32)
    (x7 : Vec Ideal S128x128 .bf16) (x8 : Vec Ideal S1x128 .f32) (x9 : Vec Ideal S128x128 .bf16) (x10 : Vec Ideal S1x128 .f32)
    (x11 : Vec Ideal S1x100 .f32)
    (hws : ∀ q k, x4 (ix2 q k) = P.ws q k) (hwa : ∀ q k, x5 (ix2 q k) = P.wa q k) (hb1 : ∀ q, x6 (ix2 (0 : Fin 1) q) = P.b1 q)
    (hw2 : ∀ q k, x7 (ix2 q k) = P.w2 q k) (hb2 : ∀ q, x8 (ix2 (0 : Fin 1) q) = P.b2 q)
    (hwf : ∀ q k, x9 (ix2 q k) = P.wf q k) (hbf : ∀ q, x10 (ix2 (0 : Fin 1) q) = P.bf q)
    (hsn : ∀ j k, x3 (ix2 j k) = P.sn j k) (hs2 : ∀ j, x11 (ix2 (0 : Fin 1) j) = P.s2 j)
    (y : S3x4096.Idx) :
    out0_12 (F := Ideal) x0 x1 x2 x3 x4 x5 x6 x7 x8 x9 x10 x11 y
      = outputs P (fun k => x0 (ix2 (n0 := 4096) (y 1) k)) (fun k => x1 (ix2 (n0 := 4096) (y 1) k))
          (fun k => x2 (ix2 (n0 := 4096) (y 1) k)) (y 0) := by
  obtain ⟨c, r, rfl⟩ : ∃ (c : Fin 3) (r : Fin 4096), y = ix2 c r := ⟨y 0, y 1, eq_ix2 y⟩
  exact out_apply P x0 x1 x2 x3 x4 x5 x6 x7 x8 x9 x10 x11 hws hwa hb1 hw2 hb2 hwf hbf hsn hs2 c r

end Cert.KernelIdeal.Rows

end
-- ==== Proof.ArraySpec.lean ====
/-
  The result array as one function of the argument arrays.

  The weights a sample's reward depends on are read off the arrays: the first layer's matrix is 128 × 160, its first 128
  columns acting on the state and its last 32 on the action; each remembered row's squared norm is the sum of its squared
  entries (from the zero a running sum starts at). Entry `(c, p)` of the result is output `c` of sample `p`.
-/
import proofs.«118929_j55027120996868_2_alg».proof.Proof.RowSpec
import Idealize.ShloMosaic.Lib.ValueIdx

noncomputable section

namespace Cert.Curiosity

open Idealize.ShloMosaic Idealize.ShloMosaic.ValueIdx

/-- The weights, read off the argument arrays. -/
def arrWeights (sn : (⟨2, ![100, 128]⟩ : Shape).Idx → EReal) (w1 : (⟨2, ![128, 160]⟩ : Shape).Idx → EReal)
    (b1 : (⟨1, ![128]⟩ : Shape).Idx → EReal) (w2 : (⟨2, ![128, 128]⟩ : Shape).Idx → EReal) (b2 : (⟨1, ![128]⟩ : Shape).Idx → EReal)
    (wf : (⟨2, ![128, 128]⟩ : Shape).Idx → EReal) (bf : (⟨1, ![128]⟩ : Shape).Idx → EReal) : Weights where
  ws q k := w1 (ix2 q (⟨k.val, by have := k.isLt; omega⟩ : Fin 160))
  wa q k := w1 (ix2 q (⟨128 + k.val, by have := k.isLt; omega⟩ : Fin 160))
  b1 q := b1 (ix1 q)
  w2 q k := w2 (ix2 q k)
  b2 q := b2 (ix1 q)
  wf q k := wf (ix2 q k)
  bf q := bf (ix1 q)
  sn j k := sn (ix2 j k)
  s2 j := Ideal.ofBits .f32 0x00000000#32 + ∑ k : Fin 128, sn (ix2 j k) * sn (ix2 j k)

/-- The whole result: entry `(c, p)` is output `c` of sample `p`, whose rows are row `p` of the state, action and
    next-state arrays. -/
def result (st : (⟨2, ![262144, 128]⟩ : Shape).Idx → EReal) (ac : (⟨2, ![262144, 32]⟩ : Shape).Idx → EReal)
    (ns : (⟨2, ![262144, 128]⟩ : Shape).Idx → EReal) (sn : (⟨2, ![100, 128]⟩ : Shape).Idx → EReal)
    (w1 : (⟨2, ![128, 160]⟩ : Shape).Idx → EReal) (b1 : (⟨1, ![128]⟩ : Shape).Idx → EReal)
    (w2 : (⟨2, ![128, 128]⟩ : Shape).Idx → EReal) (b2 : (⟨1, ![128]⟩ : Shape).Idx → EReal)
    (wf : (⟨2, ![128, 128]⟩ : Shape).Idx → EReal) (bf : (⟨1, ![128]⟩ : Shape).Idx → EReal) :
    (⟨2, ![3, 262144]⟩ : Shape).Idx → EReal := fun i =>
  outputs (arrWeights sn w1 b1 w2 b2 wf bf) (fun k => st (ix2 (n0 := 262144) (n1 := 128) (i 1) k))
    (fun k => ac (ix2 (n0 := 262144) (n1 := 32) (i 1) k)) (fun k => ns (ix2 (n0 := 262144) (n1 := 128) (i 1) k)) (i 0)

theorem result_apply (st : (⟨2, ![262144, 128]⟩ : Shape).Idx → EReal) (ac : (⟨2, ![262144, 32]⟩ : Shape).Idx → EReal)
    (ns : (⟨2, ![262144, 128]⟩ : Shape).Idx → EReal) (sn : (⟨2, ![100, 128]⟩ : Shape).Idx → EReal)
    (w1 : (⟨2, ![128, 160]⟩ : Shape).Idx → EReal) (b1 : (⟨1, ![128]⟩ : Shape).Idx → EReal)
    (w2 : (⟨2, ![128, 128]⟩ : Shape).Idx → EReal) (b2 : (⟨1, ![128]⟩ : Shape).Idx → EReal)
    (wf : (⟨2, ![128, 128]⟩ : Shape).Idx → EReal) (bf : (⟨1, ![128]⟩ : Shape).Idx → EReal) (c : Fin 3) (p : Fin 262144) :
    result st ac ns sn w1 b1 w2 b2 wf bf (ix2 c p)
      = outputs (arrWeights sn w1 b1 w2 b2 wf bf) (fun k => st (ix2 p k)) (fun k => ac (ix2 p k)) (fun k => ns (ix2 p k)) c := rfl

end Cert.Curiosity

end
-- ==== Proof.KernelValue.lean ====
/-
  From blocks to the array: what the kernel's result array holds after the run.

  The grid has 64 points; point `t` streams rows `4096 t … 4096 t + 4095` of the state, action and next-state arrays
  and keeps the weights resident: its blocks of the weight arrays are the whole arrays, which @main prepares before the
  launch (the first layer's matrix cut at column 128, every matrix and the remembered rows rounded to sixteen bits, which
  is the identity at the exact values, each bias made a row, and the remembered rows' squared norms summed). So what
  point `t` writes back, columns `4096 t … 4096 t + 4095` of the 3 × 262144 result, is the block of
  `Cert.Curiosity.result` of the argument arrays, and the 64 blocks cover the result.
-/
import proofs.«118929_j55027120996868_2_alg».proof.Proof.Gen.KernelIdeal.Value
import proofs.«118929_j55027120996868_2_alg».proof.Proof.KernelOut
import proofs.«118929_j55027120996868_2_alg».proof.Proof.ArraySpec
import Idealize.ShloMosaic.Lib.Pipeline.Value
import Idealize.ShloMosaic.Lib.StableHlo.Run

noncomputable section

namespace Cert.KernelIdeal.Whole

open Cert.KernelIdeal Cert.KernelIdeal.Gen Cert.KernelIdeal.Rows Idealize.ShloMosaic Idealize.ShloMosaic.TcCoe
open Idealize.ShloMosaic.ValueIdx Idealize.ShloMosaic.StableHlo Idealize.SL.Sem Cert.Curiosity
open Idealize.ShloMosaic.Pipeline (Dat)

variable (m : (ℓ : Loc nD τ sig) → Buf (Elt Ideal) ℓ) (ρ : Dev nD → PrngReg)

/-- The weights, read off the argument arrays as launched. -/
abbrev wts (c : Dev nD) : Weights :=
  arrWeights (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The result array as a function of the argument arrays as launched. -/
abbrev res (c : Dev nD) : S3x262144.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-! ## What @main prepares before the launch -/

theorem V_v1_at (c : Dev nD) (q k : Fin 128) :
    (V m c main_v1 : S128x128.Idx → EReal) (ix2 q k) = (wts m c).ws q k := by
  have e : @Eq (S128x128.Idx → EReal) (V m c main_v1)
      (truncf (F := Ideal) .bf16 (extractStridedSlice S128x128 ![0, 0] (m ((c : Thread nD τ).loc main_arg4) : FVec Ideal S128x160 .f32)
          slices_S128x160_S128x128_0_0) bitsLt_bf16_f32) := by
    dsimp only [Gen.V, Gen.hostOps0]; after_results
  rw [e, truncf_apply]
  exact slice2_axis1_apply 0 _ _ q k _ (Nat.zero_add _).symm

theorem V_v3_at (c : Dev nD) (q : Fin 128) (k : Fin 32) :
    (V m c main_v3 : S128x32.Idx → EReal) (ix2 q k) = (wts m c).wa q k := by
  have e : @Eq (S128x32.Idx → EReal) (V m c main_v3)
      (truncf (F := Ideal) .bf16 (extractStridedSlice S128x32 ![0, 128] (m ((c : Thread nD τ).loc main_arg4) : FVec Ideal S128x160 .f32)
          slices_S128x160_S128x32_0_128) bitsLt_bf16_f32) := by
    dsimp only [Gen.V, Gen.hostOps0]; after_results
  rw [e, truncf_apply]
  exact slice2_axis1_apply 128 _ _ q k _ rfl

theorem V_v4_at (c : Dev nD) (q k : Fin 128) : (V m c main_v4 : S128x128.Idx → EReal) (ix2 q k) = (wts m c).w2 q k := by
  have e : @Eq (S128x128.Idx → EReal) (V m c main_v4)
      (truncf (F := Ideal) .bf16 (m ((c : Thread nD τ).loc main_arg6) : FVec Ideal S128x128 .f32) bitsLt_bf16_f32) := by
    dsimp only [Gen.V, Gen.hostOps0]; after_results
  rw [e]; rfl

theorem V_v5_at (c : Dev nD) (q k : Fin 128) : (V m c main_v5 : S128x128.Idx → EReal) (ix2 q k) = (wts m c).wf q k := by
  have e : @Eq (S128x128.Idx → EReal) (V m c main_v5)
      (truncf (F := Ideal) .bf16 (m ((c : Thread nD τ).loc main_arg8) : FVec Ideal S128x128 .f32) bitsLt_bf16_f32) := by
    dsimp only [Gen.V, Gen.hostOps0]; after_results
  rw [e]; rfl

theorem V_v6_at (c : Dev nD) (j : Fin 100) (k : Fin 128) : (V m c main_v6 : S100x128.Idx → EReal) (ix2 j k) = (wts m c).sn j k := by
  have e : @Eq (S100x128.Idx → EReal) (V m c main_v6)
      (truncf (F := Ideal) .bf16 (m ((c : Thread nD τ).loc main_arg3) : FVec Ideal S100x128 .f32) bitsLt_bf16_f32) := by
    dsimp only [Gen.V, Gen.hostOps0]; after_results
  rw [e]; rfl

theorem V_v10_at (c : Dev nD) (q : Fin 128) : (V m c main_v10 : S1x128.Idx → EReal) (ix2 (0 : Fin 1) q) = (wts m c).b1 q := by
  have e : @Eq (S1x128.Idx → EReal) (V m c main_v10)
      (shapeCast S1x128 (m ((c : Thread nD τ).loc main_arg5) : FVec Ideal S128 .f32) shapeCasts_S128_S1x128) := by
    dsimp only [Gen.V, Gen.hostOps0]; after_results; rfl
  rw [e]; exact shapeCast_a_1a_apply _ _ (0 : Fin 1) q

theorem V_v11_at (c : Dev nD) (q : Fin 128) : (V m c main_v11 : S1x128.Idx → EReal) (ix2 (0 : Fin 1) q) = (wts m c).b2 q := by
  have e : @Eq (S1x128.Idx → EReal) (V m c main_v11)
      (shapeCast S1x128 (m ((c : Thread nD τ).loc main_arg7) : FVec Ideal S128 .f32) shapeCasts_S128_S1x128) := by
    dsimp only [Gen.V, Gen.hostOps0]; after_results; rfl
  rw [e]; exact shapeCast_a_1a_apply _ _ (0 : Fin 1) q

theorem V_v12_at (c : Dev nD) (q : Fin 128) : (V m c main_v12 : S1x128.Idx → EReal) (ix2 (0 : Fin 1) q) = (wts m c).bf q := by
  have e : @Eq (S1x128.Idx → EReal) (V m c main_v12)
      (shapeCast S1x128 (m ((c : Thread nD τ).loc main_arg9) : FVec Ideal S128 .f32) shapeCasts_S128_S1x128) := by
    dsimp only [Gen.V, Gen.hostOps0]; after_results; rfl
  rw [e]; exact shapeCast_a_1a_apply _ _ (0 : Fin 1) q

/-- The squared norms of the remembered rows, as @main sums them. -/
theorem V_v9_at (c : Dev nD) (j : Fin 100) : (V m c main_v9 : S1x100.Idx → EReal) (ix2 (0 : Fin 1) j) = (wts m c).s2 j := by
  have e : @Eq (S1x100.Idx → EReal) (V m c main_v9)
      (shapeCast S1x100 (Host.reduceAdd (F := Ideal)
          (mulf (m ((c : Thread nD τ).loc main_arg3) : FVec Ideal S100x128 .f32) (m ((c : Thread nD τ).loc main_arg3)))
          (constant (F := Ideal) S_ .f32 0x00000000#32) reducesTo_S100x128_S100_d1 h_S_) shapeCasts_S100_S1x100) := by
    dsimp only [Gen.V, Gen.hostOps0]; after_results; rfl
  have hR : S100x128.Reduces [1] S100 := by decide
  rw [e, shapeCast_a_1a_apply _ _ (0 : Fin 1) j]
  simp only [Host.reduceAdd, Ideal.hostReduceAdd_def]
  rw [Ideal.hostReduceAdd_single reducesTo_S100x128_S100_d1 hR]
  refine congrArg₂ (· + ·) rfl (Finset.sum_congr rfl fun k _ => ?_)
  have hl : hR.lift (ix1 j) k = ix2 j (⟨k.val, k.isLt⟩ : Fin 128) :=
    funext fun a => Fin.ext (by match a with | ⟨0, _⟩ => rfl | ⟨1, _⟩ => rfl)
  rw [hl]
  rfl

/-! ## The windows' blocks -/

/-- The printed index maps over the 64 points: the three streamed windows and the output move with the point, the
    resident windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = t.val :=
  (by decide +kernel : ∀ t : Fin grid0.N, _)

/-- Row `r` of point `t`'s streamed blocks is row `R = 4096 t + r` of the arrays. -/
theorem blk0_at (c : Dev nD) (t : Fin cfg0.N) (r : Fin 4096) (k : Fin 128) (R : Fin 262144) (hR : R.val = t.val * 4096 + r.val) :
    (iblk m c 0 t : S4096x128.Idx → EReal) (ix2 r k) = (m ((c : Thread nD τ).loc main_arg0) : S262144x128.Idx → EReal) (ix2 R k) := by
  obtain ⟨e0, e1, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 4096 + 1 * r.val = R.val; rw [e0, hR]; omega
  | ⟨1, _⟩ => show win0_0.index t (1 : Fin 2) * 128 + 1 * k.val = k.val; rw [e1]; omega

theorem blk1_at (c : Dev nD) (t : Fin cfg0.N) (r : Fin 4096) (k : Fin 32) (R : Fin 262144) (hR : R.val = t.val * 4096 + r.val) :
    (iblk m c 1 t : S4096x32.Idx → EReal) (ix2 r k) = (m ((c : Thread nD τ).loc main_arg1) : S262144x32.Idx → EReal) (ix2 R k) := by
  obtain ⟨-, -, e0, e1, -⟩ := idx_facts t
  show V m c main_arg1 (((cfg0.win 1).blk t).view.emb (ix2 r k)) = _
  rw [V_main_arg1]
  refine congrArg _ (funext fun a => Fin.ext ?_)
  match a with
  | ⟨0, _⟩ => show win0_1.index t (0 : Fin 2) * 4096 + 1 * r.val = R.val; rw [e0, hR]; omega
  | ⟨1, _⟩ => show win0_1.index t (1 : Fin 2) * 32 + 1 * k.val = k.val; rw [e1]; omega

theorem blk2_at (c : Dev nD) (t : Fin cfg0.N) (r : Fin 4096) (k : Fin 128) (R : Fin 262144) (hR : R.val = t.val * 4096 + r.val) :
    (iblk m c 2 t : S4096x128.Idx → EReal) (ix2 r k) = (m ((c : Thread nD τ).loc main_arg2) : S262144x128.Idx → EReal) (ix2 R k) := by
  obtain ⟨-, -, -, -, e0, e1, -⟩ := idx_facts t
  show V m c main_arg2 (((cfg0.win 2).blk t).view.emb (ix2 r k)) = _
  rw [V_main_arg2]
  refine congrArg _ (funext fun a => Fin.ext ?_)
  match a with
  | ⟨0, _⟩ => show win0_2.index t (0 : Fin 2) * 4096 + 1 * r.val = R.val; rw [e0, hR]; omega
  | ⟨1, _⟩ => show win0_2.index t (1 : Fin 2) * 128 + 1 * k.val = k.val; rw [e1]; omega

/-- The resident windows' blocks are the whole arrays @main prepared. -/
theorem blk3_at (c : Dev nD) (t : Fin cfg0.N) (j : Fin 100) (k : Fin 128) :
    (iblk m c 3 t : S100x128.Idx → EReal) (ix2 j k) = (wts m c).sn j k := by
  obtain ⟨-, -, -, -, -, -, e0, e1, -⟩ := idx_facts t
  refine Eq.trans ?_ (V_v6_at m c j k)
  show V m c main_v6 (((cfg0.win 3).blk t).view.emb (ix2 j k)) = _
  refine congrArg _ (funext fun a => Fin.ext ?_)
  match a with
  | ⟨0, _⟩ => show win0_3.index t (0 : Fin 2) * 100 + 1 * j.val = j.val; rw [e0]; omega
  | ⟨1, _⟩ => show win0_3.index t (1 : Fin 2) * 128 + 1 * k.val = k.val; rw [e1]; omega

theorem blk4_at (c : Dev nD) (t : Fin cfg0.N) (q k : Fin 128) :
    (iblk m c 4 t : S128x128.Idx → EReal) (ix2 q k) = (wts m c).ws q k := by
  obtain ⟨-, -, -, -, -, -, -, -, e0, e1, -⟩ := idx_facts t
  refine Eq.trans ?_ (V_v1_at m c q k)
  show V m c main_v1 (((cfg0.win 4).blk t).view.emb (ix2 q k)) = _
  refine congrArg _ (funext fun a => Fin.ext ?_)
  match a with
  | ⟨0, _⟩ => show win0_4.index t (0 : Fin 2) * 128 + 1 * q.val = q.val; rw [e0]; omega
  | ⟨1, _⟩ => show win0_4.index t (1 : Fin 2) * 128 + 1 * k.val = k.val; rw [e1]; omega

theorem blk5_at (c : Dev nD) (t : Fin cfg0.N) (q : Fin 128) (k : Fin 32) :
    (iblk m c 5 t : S128x32.Idx → EReal) (ix2 q k) = (wts m c).wa q k := by
  obtain ⟨-, -, -, -, -, -, -, -, -, -, e0, e1, -⟩ := idx_facts t
  refine Eq.trans ?_ (V_v3_at m c q k)
  show V m c main_v3 (((cfg0.win 5).blk t).view.emb (ix2 q k)) = _
  refine congrArg _ (funext fun a => Fin.ext ?_)
  match a with
  | ⟨0, _⟩ => show win0_5.index t (0 : Fin 2) * 128 + 1 * q.val = q.val; rw [e0]; omega
  | ⟨1, _⟩ => show win0_5.index t (1 : Fin 2) * 32 + 1 * k.val = k.val; rw [e1]; omega

theorem blk6_at (c : Dev nD) (t : Fin cfg0.N) (q : Fin 128) :
    (iblk m c 6 t : S1x128.Idx → EReal) (ix2 (0 : Fin 1) q) = (wts m c).b1 q := by
  obtain ⟨-, -, -, -, -, -, -, -, -, -, -, -, e0, e1, -⟩ := idx_facts t
  refine Eq.trans ?_ (V_v10_at m c q)
  show V m c main_v10 (((cfg0.win 6).blk t).view.emb (ix2 (0 : Fin 1) q)) = _
  refine congrArg _ (funext fun a => Fin.ext ?_)
  match a with
  | ⟨0, _⟩ => show win0_6.index t (0 : Fin 2) * 1 + 1 * 0 = 0; rw [e0]
  | ⟨1, _⟩ => show win0_6.index t (1 : Fin 2) * 128 + 1 * q.val = q.val; rw [e1]; omega

theorem blk7_at (c : Dev nD) (t : Fin cfg0.N) (q k : Fin 128) :
    (iblk m c 7 t : S128x128.Idx → EReal) (ix2 q k) = (wts m c).w2 q k := by
  obtain ⟨-, -, -, -, -, -, -, -, -, -, -, -, -, -, e0, e1, -⟩ := idx_facts t
  refine Eq.trans ?_ (V_v4_at m c q k)
  show V m c main_v4 (((cfg0.win 7).blk t).view.emb (ix2 q k)) = _
  refine congrArg _ (funext fun a => Fin.ext ?_)
  match a with
  | ⟨0, _⟩ => show win0_7.index t (0 : Fin 2) * 128 + 1 * q.val = q.val; rw [e0]; omega
  | ⟨1, _⟩ => show win0_7.index t (1 : Fin 2) * 128 + 1 * k.val = k.val; rw [e1]; omega

theorem blk8_at (c : Dev nD) (t : Fin cfg0.N) (q : Fin 128) :
    (iblk m c 8 t : S1x128.Idx → EReal) (ix2 (0 : Fin 1) q) = (wts m c).b2 q := by
  obtain ⟨-, -, -, -, -, -, -, -, -, -, -, -, -, -, -, -, e0, e1, -⟩ := idx_facts t
  refine Eq.trans ?_ (V_v11_at m c q)
  show V m c main_v11 (((cfg0.win 8).blk t).view.emb (ix2 (0 : Fin 1) q)) = _
  refine congrArg _ (funext fun a => Fin.ext ?_)
  match a with
  | ⟨0, _⟩ => show win0_8.index t (0 : Fin 2) * 1 + 1 * 0 = 0; rw [e0]
  | ⟨1, _⟩ => show win0_8.index t (1 : Fin 2) * 128 + 1 * q.val = q.val; rw [e1]; omega

theorem blk9_at (c : Dev nD) (t : Fin cfg0.N) (q k : Fin 128) :
    (iblk m c 9 t : S128x128.Idx → EReal) (ix2 q k) = (wts m c).wf q k := by
  obtain ⟨-, -, -, -, -, -, -, -, -, -, -, -, -, -, -, -, -, -, e0, e1, -⟩ := idx_facts t
  refine Eq.trans ?_ (V_v5_at m c q k)
  show V m c main_v5 (((cfg0.win 9).blk t).view.emb (ix2 q k)) = _
  refine congrArg _ (funext fun a => Fin.ext ?_)
  match a with
  | ⟨0, _⟩ => show win0_9.index t (0 : Fin 2) * 128 + 1 * q.val = q.val; rw [e0]; omega
  | ⟨1, _⟩ => show win0_9.index t (1 : Fin 2) * 128 + 1 * k.val = k.val; rw [e1]; omega

theorem blk10_at (c : Dev nD) (t : Fin cfg0.N) (q : Fin 128) :
    (iblk m c 10 t : S1x128.Idx → EReal) (ix2 (0 : Fin 1) q) = (wts m c).bf q := by
  obtain ⟨-, -, -, -, -, -, -, -, -, -, -, -, -, -, -, -, -, -, -, -, e0, e1, -⟩ := idx_facts t
  refine Eq.trans ?_ (V_v12_at m c q)
  show V m c main_v12 (((cfg0.win 10).blk t).view.emb (ix2 (0 : Fin 1) q)) = _
  refine congrArg _ (funext fun a => Fin.ext ?_)
  match a with
  | ⟨0, _⟩ => show win0_10.index t (0 : Fin 2) * 1 + 1 * 0 = 0; rw [e0]
  | ⟨1, _⟩ => show win0_10.index t (1 : Fin 2) * 128 + 1 * q.val = q.val; rw [e1]; omega

theorem blk11_at (c : Dev nD) (t : Fin cfg0.N) (j : Fin 100) :
    (iblk m c 11 t : S1x100.Idx → EReal) (ix2 (0 : Fin 1) j) = (wts m c).s2 j := by
  obtain ⟨-, -, -, -, -, -, -, -, -, -, -, -, -, -, -, -, -, -, -, -, -, -, e0, e1, -⟩ := idx_facts t
  refine Eq.trans ?_ (V_v9_at m c j)
  show V m c main_v9 (((cfg0.win 11).blk t).view.emb (ix2 (0 : Fin 1) j)) = _
  refine congrArg _ (funext fun a => Fin.ext ?_)
  match a with
  | ⟨0, _⟩ => show win0_11.index t (0 : Fin 2) * 1 + 1 * 0 = 0; rw [e0]
  | ⟨1, _⟩ => show win0_11.index t (1 : Fin 2) * 100 + 1 * j.val = j.val; rw [e1]; omega

/-! ## What a point writes back, the cover, the array, the run -/

/-- Equal rows and equal positions give equal outputs. -/
theorem outputs_congr (P : Weights) {x x' : Fin 128 → EReal} {a a' : Fin 32 → EReal} {n n' : Fin 128 → EReal} {c c' : Fin 3}
    (hx : x = x') (ha : a = a') (hn : n = n') (hc : c = c') : outputs P x a n c = outputs P x' a' n' c' := by
  subst hx ha hn hc; rfl

/-- What point `t` writes back is block `t` of the result. -/
theorem flushed_eq (c : Dev nD) (t : Fin cfg0.N) :
    (dats m 0 c).flushed 12 t = ((cfg0.win 12).blk t).view.read (Elt Ideal) (res m c) := by
  rw [Value.flushed12]
  obtain ⟨-, -, -, -, -, -, -, -, -, -, -, -, -, -, -, -, -, -, -, -, -, -, -, -, e0, e1⟩ := idx_facts t
  funext y
  have hy0 : (y 0).val < 3 := (y 0).isLt
  have hy1 : (y 1).val < 4096 := (y 1).isLt
  show out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) y
    = res m c (((cfg0.win 12).blk t).view.emb y)
  refine (out_apply' (wts m c) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)
    (blk4_at m c t) (blk5_at m c t) (blk6_at m c t) (blk7_at m c t) (blk8_at m c t) (blk9_at m c t) (blk10_at m c t)
    (blk3_at m c t) (blk11_at m c t) y).trans ?_
  have hr : ((((cfg0.win 12).blk t).view.emb y) 1).val = t.val * 4096 + (y 1).val := by
    show win0_12.index t (1 : Fin 2) * 4096 + 1 * (y 1).val = _
    rw [e1]; omega
  have hc : ((((cfg0.win 12).blk t).view.emb y) 0).val = (y 0).val := by
    show win0_12.index t (0 : Fin 2) * 3 + 1 * (y 0).val = _
    rw [e0]; omega
  refine outputs_congr (wts m c) (funext fun k => ?_) (funext fun k => ?_) (funext fun k => ?_) (Fin.ext hc.symm)
  · exact blk0_at m c t _ k _ hr
  · exact blk1_at m c t _ k _ hr
  · exact blk2_at m c t _ k _ hr

/-- An index of the result is in point `t`'s block iff each coordinate is in the block's range on its axis. -/
theorem mem_blk (t : Fin cfg0.N) (i : S3x262144.Idx) :
    i ∈ ((cfg0.win 12).blk t).view.set ↔ ∀ a : Fin 2, win0_12.index t a * S3x4096.size a ≤ (i a).val
      ∧ (i a).val < win0_12.index t a * S3x4096.size a + S3x4096.size a := by
  show i ∈ ((View.whole main_v13).slice (win0_12.rect t)).set ↔ _
  rw [View.set_slice_whole, Rect.mem_set_unit]
  exact Iff.rfl

/-- Every column of the result belongs to the point that streams it. -/
theorem cover (i : S3x262144.Idx) : ∃ t : Fin cfg0.N, (cfg0.win 12).flush t = true ∧ i ∈ ((cfg0.win 12).blk t).view.set := by
  have hi0 : (i 0).val < 3 := (i 0).isLt
  have hi1 : (i 1).val < 262144 := (i 1).isLt
  have hN : cfg0.N = 64 := N_0
  let t : Fin cfg0.N := ⟨(i 1).val / 4096, by rw [hN]; omega⟩
  obtain ⟨-, -, -, -, -, -, -, -, -, -, -, -, -, -, -, -, -, -, -, -, -, -, -, -, e0, e1⟩ := idx_facts t
  have ht : t.val = (i 1).val / 4096 := rfl
  refine ⟨t, flush0_12 t, ?_⟩
  rw [mem_blk]
  intro a
  match a with
  | ⟨0, _⟩ =>
    show win0_12.index t (0 : Fin 2) * 3 ≤ (i 0).val ∧ (i 0).val < win0_12.index t (0 : Fin 2) * 3 + 3
    rw [e0]; omega
  | ⟨1, _⟩ =>
    show win0_12.index t (1 : Fin 2) * 4096 ≤ (i 1).val ∧ (i 1).val < win0_12.index t (1 : Fin 2) * 4096 + 4096
    rw [e1, ht]; omega

/-- After the run the result array is `Cert.Curiosity.result` of the argument arrays. -/
theorem final (c : Dev nD) : (dats m 0 c).arrAt 12 cfg0.N = res m c :=
  (dats m 0 c).arrAt_eq_of_cover 12 (res m c) (fun t _ => flushed_eq m c t) (cover)

/-- The run, read: the result array at `result` of the arguments, the arguments unchanged. -/
theorem run : θ_run defs (onTc (τ := τ) (main (F := Ideal))) ⟨m, fun _ => 0, ρ⟩ fun r => ∀ c : Dev nD,
      r.2.mem ((c : Thread nD τ).loc main_v13) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Whole

end
-- ==== Proof.RefRows.lean ====
/-
  The reference program, read one entry at a time on the extended reals.

  Every operation of the reference either works entry by entry, or repeats a row, a column or a scalar, or contracts
  along a row (its five matrix products and three sums), or takes the minimum along a row. So entry `(p, ·)` of each of
  its intermediate arrays depends only on row `p` of the state, action and next-state arrays, and the three rows of its
  result at column `p` are the three outputs of sample `p` (`Cert.Curiosity.outputs`). The one step that is not a
  re-reading is the first layer: the reference multiplies the joined row `[x | a]` of 160 entries by the whole 128 × 160
  matrix, and a sum over 160 columns is the sum over the first 128 plus the sum over the last 32.
-/
import proofs.«118929_j55027120996868_2_alg».proof.Proof.ReadPatched
import proofs.«118929_j55027120996868_2_alg».proof.Proof.ArraySpec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.Rows

open Cert.ReferenceIdeal Cert.ReferenceIdeal.Gen Cert.ReferenceIdeal.ReadP Idealize.ShloMosaic Idealize.ShloMosaic.ValueIdx Cert.Curiosity

/-- An array of extended reals of shape `s`. -/
abbrev Arr (s : Shape) : Type := (⟨s, .f32⟩ : BufTy).Contents (Elt Ideal)

variable (x0 : Arr S262144x128) (x1 : Arr S262144x32) (x2 : Arr S262144x128) (x3 : Arr S100x128) (x4 : Arr S128x160)
  (x5 : Arr S128) (x6 : Arr S128x128) (x7 : Arr S128) (x8 : Arr S128x128) (x9 : Arr S128)

/-! ## The operand indices of the products and sums -/

theorem lidx2 (p : Fin 262144) (q : Fin 128) (k : Fin 160) : lidx_main_v2 (ix2 p q) k = ix2 p k :=
  funext fun a => match a with | ⟨0, _⟩ => rfl | ⟨1, _⟩ => rfl
theorem ridx2 (p : Fin 262144) (q : Fin 128) (k : Fin 160) : ridx_main_v2 (ix2 p q) k = ix2 k q :=
  funext fun a => match a with | ⟨0, _⟩ => rfl | ⟨1, _⟩ => rfl
theorem lidx8 (p : Fin 262144) (q k : Fin 128) : lidx_main_v8 (ix2 p q) k = ix2 p k :=
  funext fun a => match a with | ⟨0, _⟩ => rfl | ⟨1, _⟩ => rfl
theorem ridx8 (p : Fin 262144) (q k : Fin 128) : ridx_main_v8 (ix2 p q) k = ix2 k q :=
  funext fun a => match a with | ⟨0, _⟩ => rfl | ⟨1, _⟩ => rfl
theorem lidx13 (p : Fin 262144) (q k : Fin 128) : lidx_main_v13 (ix2 p q) k = ix2 p k :=
  funext fun a => match a with | ⟨0, _⟩ => rfl | ⟨1, _⟩ => rfl
theorem ridx13 (p : Fin 262144) (q k : Fin 128) : ridx_main_v13 (ix2 p q) k = ix2 k q :=
  funext fun a => match a with | ⟨0, _⟩ => rfl | ⟨1, _⟩ => rfl
theorem lidx19 (p : Fin 262144) (q k : Fin 128) : lidx_main_v19 (ix2 p q) k = ix2 p k :=
  funext fun a => match a with | ⟨0, _⟩ => rfl | ⟨1, _⟩ => rfl
theorem ridx19 (p : Fin 262144) (q k : Fin 128) : ridx_main_v19 (ix2 p q) k = ix2 k q :=
  funext fun a => match a with | ⟨0, _⟩ => rfl | ⟨1, _⟩ => rfl
theorem lidx39 (p : Fin 262144) (j : Fin 100) (k : Fin 128) : lidx_main_v39 (ix2 p j) k = ix2 p k :=
  funext fun a => match a with | ⟨0, _⟩ => rfl | ⟨1, _⟩ => rfl
theorem ridx39 (p : Fin 262144) (j : Fin 100) (k : Fin 128) : ridx_main_v39 (ix2 p j) k = ix2 k j :=
  funext fun a => match a with | ⟨0, _⟩ => rfl | ⟨1, _⟩ => rfl
theorem idx26 (p : Fin 262144) (k : Fin 128) : idx_main_v26 (ix1 p) k = ix2 p k :=
  funext fun a => match a with | ⟨0, _⟩ => rfl | ⟨1, _⟩ => rfl
theorem idx30 (p : Fin 262144) (k : Fin 128) : idx_main_v30 (ix1 p) k = ix2 p k :=
  funext fun a => match a with | ⟨0, _⟩ => rfl | ⟨1, _⟩ => rfl
theorem idx33 (j : Fin 100) (k : Fin 128) : idx_main_v33 (ix1 j) k = ix2 j k :=
  funext fun a => match a with | ⟨0, _⟩ => rfl | ⟨1, _⟩ => rfl

/-! ## Re-laid operands -/

theorem v1_at (k : Fin 160) (q : Fin 128) : val_main_v1 (F := Ideal) x4 (ix2 k q) = x4 (ix2 q k) :=
  (val_main_v1_apply x4 (ix2 k q)).trans (congrArg x4 (funext fun a => match a with | ⟨0, _⟩ => rfl | ⟨1, _⟩ => rfl))
theorem v7_at (k q : Fin 128) : val_main_v7 (F := Ideal) x6 (ix2 k q) = x6 (ix2 q k) :=
  (val_main_v7_apply x6 (ix2 k q)).trans (congrArg x6 (funext fun a => match a with | ⟨0, _⟩ => rfl | ⟨1, _⟩ => rfl))
theorem v12_at (k q : Fin 128) : val_main_v12 (F := Ideal) x8 (ix2 k q) = x8 (ix2 q k) :=
  (val_main_v12_apply x8 (ix2 k q)).trans (congrArg x8 (funext fun a => match a with | ⟨0, _⟩ => rfl | ⟨1, _⟩ => rfl))
theorem v18_at (k q : Fin 128) : val_main_v18 (F := Ideal) x8 (ix2 k q) = x8 (ix2 q k) :=
  (val_main_v18_apply x8 (ix2 k q)).trans (congrArg x8 (funext fun a => match a with | ⟨0, _⟩ => rfl | ⟨1, _⟩ => rfl))
theorem v38_at (k : Fin 128) (j : Fin 100) : val_main_v38 (F := Ideal) x3 (ix2 k j) = x3 (ix2 j k) :=
  (val_main_v38_apply x3 (ix2 k j)).trans (congrArg x3 (funext fun a => match a with | ⟨0, _⟩ => rfl | ⟨1, _⟩ => rfl))

/-- A bias vector made a row and repeated down the rows reads its entry `q`. -/
theorem v4_at (p : Fin 262144) (q : Fin 128) : val_main_v4 (F := Ideal) x5 (ix2 p q) = x5 (ix1 q) :=
  ((val_main_v4_apply x5 (ix2 p q)).trans (val_main_v3_apply x5 _)).trans
    (congrArg x5 (funext fun a => match a with | ⟨0, _⟩ => rfl))
theorem v10_at (p : Fin 262144) (q : Fin 128) : val_main_v10 (F := Ideal) x7 (ix2 p q) = x7 (ix1 q) :=
  ((val_main_v10_apply x7 (ix2 p q)).trans (val_main_v9_apply x7 _)).trans
    (congrArg x7 (funext fun a => match a with | ⟨0, _⟩ => rfl))
theorem v15_at (p : Fin 262144) (q : Fin 128) : val_main_v15 (F := Ideal) x9 (ix2 p q) = x9 (ix1 q) :=
  ((val_main_v15_apply x9 (ix2 p q)).trans (val_main_v14_apply x9 _)).trans
    (congrArg x9 (funext fun a => match a with | ⟨0, _⟩ => rfl))
theorem v21_at (p : Fin 262144) (q : Fin 128) : val_main_v21 (F := Ideal) x9 (ix2 p q) = x9 (ix1 q) :=
  ((val_main_v21_apply x9 (ix2 p q)).trans (val_main_v20_apply x9 _)).trans
    (congrArg x9 (funext fun a => match a with | ⟨0, _⟩ => rfl))

/-- The rectifier's zero, whichever call it belongs to. -/
theorem zero0_at (i : S262144x128.Idx) : val_main_call0_v0 (F := Ideal) i = Ideal.ofBits .f32 0x00000000#32 :=
  (val_main_call0_v0_apply i).trans (val_main_call0_cst_apply _)
theorem zero1_at (i : S262144x128.Idx) : val_main_call1_v0 (F := Ideal) i = Ideal.ofBits .f32 0x00000000#32 :=
  (val_main_call1_v0_apply i).trans (val_main_call1_cst_apply _)
theorem zero2_at (i : S262144x128.Idx) : val_main_call2_v0 (F := Ideal) i = Ideal.ofBits .f32 0x00000000#32 :=
  (val_main_call2_v0_apply i).trans (val_main_call2_cst_apply _)

/-- The joined row `[x | a]`: its first 128 columns are the state's. -/
theorem v0_left (p : Fin 262144) (k : Fin 128) :
    val_main_v0 (F := Ideal) x0 x1 (ix2 p (⟨k.val, by have := k.isLt; omega⟩ : Fin 160)) = x0 (ix2 p k) := by
  unfold val_main_v0
  exact concatenate_pair_apply_left (t := S262144x160) (s₁ := S262144x128) (s₂ := S262144x32) 1 x0 x1 _
    (ix2 p (⟨k.val, by have := k.isLt; omega⟩ : Fin 160)) rfl (ix2 p k) (fun b => match b with | ⟨0, _⟩ => rfl | ⟨1, _⟩ => rfl)

/-- Its last 32 columns are the action's. -/
theorem v0_right (p : Fin 262144) (k : Fin 32) :
    val_main_v0 (F := Ideal) x0 x1 (ix2 p (⟨128 + k.val, by have := k.isLt; omega⟩ : Fin 160)) = x1 (ix2 p k) := by
  unfold val_main_v0
  refine concatenate_pair_apply_right (t := S262144x160) (s₁ := S262144x128) (s₂ := S262144x32) 1 x0 x1 _
    (ix2 p (⟨128 + k.val, by have := k.isLt; omega⟩ : Fin 160)) rfl rfl (ix2 p k) (fun b hb => ?_) ?_
  · match b with
    | ⟨0, _⟩ => rfl
    | ⟨1, _⟩ => exact absurd rfl hb
  · show k.val + 128 = 128 + k.val
    omega

/-! ## The products and sums at an entry -/

/-- The first layer's product: the sum over the joined row splits at column 128. -/
theorem v2_at (p : Fin 262144) (q : Fin 128) :
    val_main_v2 (F := Ideal) x0 x1 x4 (ix2 p q)
      = (∑ k : Fin 128, x0 (ix2 p k) * x4 (ix2 q (⟨k.val, by have := k.isLt; omega⟩ : Fin 160)))
        + ∑ k : Fin 32, x1 (ix2 p k) * x4 (ix2 q (⟨128 + k.val, by have := k.isLt; omega⟩ : Fin 160)) := by
  rw [val_main_v2_apply, sum_160]
  refine congrArg₂ (· + ·) (Finset.sum_congr rfl fun k _ => ?_) (Finset.sum_congr rfl fun k _ => ?_)
  · beta_reduce
    rw [lidx2, ridx2, v0_left, v1_at]
  · beta_reduce
    rw [lidx2, ridx2, v0_right, v1_at]

theorem v8_at (p : Fin 262144) (q : Fin 128) :
    val_main_v8 (F := Ideal) x0 x1 x4 x5 x6 (ix2 p q)
      = ∑ k : Fin 128, val_main_v6 (F := Ideal) x0 x1 x4 x5 (ix2 p k) * x6 (ix2 q k) := by
  rw [val_main_v8_apply]
  refine Finset.sum_congr rfl fun k _ => ?_
  rw [lidx8, ridx8, v7_at]

theorem v13_at (p : Fin 262144) (q : Fin 128) :
    val_main_v13 (F := Ideal) x2 x8 (ix2 p q) = ∑ k : Fin 128, x2 (ix2 p k) * x8 (ix2 q k) := by
  rw [val_main_v13_apply]
  refine Finset.sum_congr rfl fun k _ => ?_
  rw [lidx13, ridx13, v12_at]

theorem v19_at (p : Fin 262144) (q : Fin 128) :
    val_main_v19 (F := Ideal) x0 x1 x4 x5 x6 x7 x8 (ix2 p q)
      = ∑ k : Fin 128, val_main_v11 (F := Ideal) x0 x1 x4 x5 x6 x7 (ix2 p k) * x8 (ix2 q k) := by
  rw [val_main_v19_apply]
  refine Finset.sum_congr rfl fun k _ => ?_
  rw [lidx19, ridx19, v18_at]

theorem v39_at (p : Fin 262144) (j : Fin 100) :
    val_main_v39 (F := Ideal) x2 x3 x8 x9 (ix2 p j)
      = ∑ k : Fin 128, val_main_v17 (F := Ideal) x2 x8 x9 (ix2 p k) * x3 (ix2 j k) := by
  rw [val_main_v39_apply]
  refine Finset.sum_congr rfl fun k _ => ?_
  rw [lidx39, ridx39, v38_at]

/-! ## The layers at an entry -/

local notation "W" => arrWeights x3 x4 x5 x6 x7 x8 x9

/-- The hidden layer at `(p, q)` is the hidden layer of row `p`. -/
theorem hid_at (p : Fin 262144) (q : Fin 128) :
    val_main_v6 (F := Ideal) x0 x1 x4 x5 (ix2 p q) = hiddenLayer W (fun k => x0 (ix2 p k)) (fun k => x1 (ix2 p k)) q := by
  rw [val_main_v6_apply, val_main_v5_apply, v2_at, v4_at, zero0_at]
  rfl

/-- The predicted next state at `(p, q)`. -/
theorem pred_at (p : Fin 262144) (q : Fin 128) :
    val_main_v11 (F := Ideal) x0 x1 x4 x5 x6 x7 (ix2 p q)
      = affine (hiddenLayer W (fun k => x0 (ix2 p k)) (fun k => x1 (ix2 p k))) (W).w2 (W).b2 q := by
  rw [val_main_v11_apply, v8_at, v10_at]
  have h : (fun k => val_main_v6 (F := Ideal) x0 x1 x4 x5 (ix2 p k))
      = hiddenLayer W (fun k => x0 (ix2 p k)) (fun k => x1 (ix2 p k)) := funext fun k => hid_at x0 x1 x3 x4 x5 x6 x7 x8 x9 p k
  unfold affine
  rw [← h]
  rfl

/-- The actual next state's features at `(p, q)`. -/
theorem fa_at (p : Fin 262144) (q : Fin 128) :
    val_main_v17 (F := Ideal) x2 x8 x9 (ix2 p q) = feature W (fun k => x2 (ix2 p k)) q := by
  rw [val_main_v17_apply, val_main_v16_apply, v13_at, v15_at, zero1_at]
  rfl

/-- The predicted next state's features at `(p, q)`. -/
theorem fp_at (p : Fin 262144) (q : Fin 128) :
    val_main_v23 (F := Ideal) x0 x1 x4 x5 x6 x7 x8 x9 (ix2 p q)
      = feature W (affine (hiddenLayer W (fun k => x0 (ix2 p k)) (fun k => x1 (ix2 p k))) (W).w2 (W).b2) q := by
  rw [val_main_v23_apply, val_main_v22_apply, v19_at, v21_at, zero2_at,
    Finset.sum_congr rfl fun k _ => congrArg (· * x8 (ix2 q k)) (pred_at x0 x1 x3 x4 x5 x6 x7 x8 x9 p k)]
  rfl

/-! ## The three outputs of a sample -/

/-- The prediction error of sample `p`. -/
theorem err_at (p : Fin 262144) :
    val_main_v28 (F := Ideal) x0 x1 x2 x4 x5 x6 x7 x8 x9 (ix1 p)
      = predErr W (fun k => x0 (ix2 p k)) (fun k => x1 (ix2 p k)) (fun k => x2 (ix2 p k)) := by
  rw [val_main_v28_apply, val_main_v26_apply, val_main_v27_apply, val_main_cst_0_apply, val_main_cst_apply]
  have h : ∀ k : Fin 128, val_main_v25 (F := Ideal) x0 x1 x2 x4 x5 x6 x7 x8 x9 (idx_main_v26 (ix1 p) k)
      = (feature W (affine (hiddenLayer W (fun k => x0 (ix2 p k)) (fun k => x1 (ix2 p k))) (W).w2 (W).b2) k
          - feature W (fun k => x2 (ix2 p k)) k)
        * (feature W (affine (hiddenLayer W (fun k => x0 (ix2 p k)) (fun k => x1 (ix2 p k))) (W).w2 (W).b2) k
          - feature W (fun k => x2 (ix2 p k)) k) := fun k => by
    rw [idx26, val_main_v25_apply, val_main_v24_apply, fp_at x0 x1 x3 x4 x5 x6 x7 x8 x9, fa_at x2 x3 x4 x5 x6 x7 x8 x9]
    rfl
  rw [Finset.sum_congr rfl fun k _ => h k]
  unfold predErr meanSq
  rw [Ideal.hostDivf_def, Ideal.ofBits_def, Ideal.ofBits_def, Ideal.ofBits_zero_f32, zero_add]

/-- Each remembered row's squared norm, as the reference computes it. -/
theorem s2_at (i : S262144x100.Idx) (j : Fin 100) (hj : (i 1).val = j.val) :
    val_main_v36 (F := Ideal) x3 i = (W).s2 j := by
  rw [val_main_v36_apply, val_main_v34_apply]
  have e : idx_main_v34 (idx_main_v36 i) = ix1 j := funext fun a => match a with | ⟨0, _⟩ => Fin.ext hj
  rw [e, val_main_v33_apply, val_main_cst_2_apply]
  refine congrArg (_ + ·) (Finset.sum_congr rfl fun k _ => ?_)
  rw [idx33, val_main_v32_apply]
  rfl

/-- The squared norm of the sample's features, repeated along the row. -/
theorem a2_at (p : Fin 262144) (j : Fin 100) :
    val_main_v35 (F := Ideal) x2 x8 x9 (ix2 p j)
      = ∑ k : Fin 128, feature W (fun k => x2 (ix2 p k)) k * feature W (fun k => x2 (ix2 p k)) k := by
  rw [val_main_v35_apply, val_main_v31_apply]
  have e : idx_main_v31 (idx_main_v35 (ix2 p j)) = ix1 p := funext fun a => match a with | ⟨0, _⟩ => rfl
  rw [e, val_main_v30_apply, val_main_cst_1_apply, Ideal.ofBits_def, Ideal.ofBits_zero_f32, zero_add]
  refine Finset.sum_congr rfl fun k _ => ?_
  rw [idx30, val_main_v29_apply, fa_at x2 x3 x4 x5 x6 x7 x8 x9]
  rfl

/-- The squared distance from sample `p` to remembered row `j`. -/
theorem d2_at (p : Fin 262144) (j : Fin 100) :
    val_main_v42 (F := Ideal) x2 x3 x8 x9 (ix2 p j) = dist2 W (feature W (fun k => x2 (ix2 p k))) j := by
  rw [val_main_v42_apply, val_main_v37_apply, val_main_v41_apply, a2_at x2 x3 x4 x5 x6 x7 x8 x9,
    s2_at x3 x4 x5 x6 x7 x8 x9 (ix2 p j) j rfl, val_main_v40_apply, val_main_cst_3_apply, v39_at]
  have h : ∀ k : Fin 128, val_main_v17 (F := Ideal) x2 x8 x9 (ix2 p k) = feature W (fun k => x2 (ix2 p k)) k :=
    fun k => fa_at x2 x3 x4 x5 x6 x7 x8 x9 p k
  rw [Finset.sum_congr rfl fun k _ => congrArg (· * x3 (ix2 j k)) (h k)]
  rfl

/-- The reduced index `p` with column `j` put back is `(p, j)`. -/
theorem lift_col (h : S262144x100.Reduces [1] S262144) (p : Fin 262144) (j : Fin (S262144x100.size 1)) :
    h.lift (ix1 p) j = ix2 p (⟨j.val, j.isLt⟩ : Fin 100) := by
  funext c; apply Fin.ext
  match c with
  | ⟨0, _⟩ => rfl
  | ⟨1, _⟩ => rfl

/-- The novelty of sample `p`. -/
theorem nov_at (h : S262144x100.Reduces [1] S262144) (p : Fin 262144) :
    val_main_v50 (F := Ideal) x2 x3 x8 x9 (ix1 p) = novelty W (fun k => x2 (ix2 p k)) := by
  rw [val_main_v50_apply, val_main_v49_apply, val_main_cst_7_apply, val_main_v48_apply, val_main_v47_apply,
    val_main_cst_6_apply, val_main_v46_apply, val_main_v45_apply, val_main_v44_apply, val_main_cst_5_apply]
  have hm : val_main_v43 (F := Ideal) x2 x3 x8 x9 (ix1 p)
      = (Finset.univ : Finset (Fin 100)).fold min (Ideal.ofBits .f32 0x7F800000#32)
          (fun j => dist2 W (feature W (fun k => x2 (ix2 p k))) j) := by
    unfold val_main_v43
    refine (Host.reduce_eq_fold_single FloatOps.minimumf _ _ _ h _ (ix1 p)).trans ?_
    have hf : (val_main_v42 (F := Ideal) x2 x3 x8 x9 ∘ h.lift (ix1 p))
        = fun j : Fin 100 => dist2 W (feature W (fun k => x2 (ix2 p k))) j :=
      funext fun j => (congrArg (val_main_v42 (F := Ideal) x2 x3 x8 x9) (lift_col h p j)).trans
        (d2_at x2 x3 x4 x5 x6 x7 x8 x9 p _)
    rw [hf]
    rfl
  rw [hm]
  rfl

/-- The result at `(c, p)` is output `c` of sample `p`. -/
theorem out_at (h : S262144x100.Reduces [1] S262144) (c : Fin 3) (p : Fin 262144) :
    val_main_v59 (F := Ideal) x0 x1 x2 x3 x4 x5 x6 x7 x8 x9 (ix2 c p)
      = outputs W (fun k => x0 (ix2 p k)) (fun k => x1 (ix2 p k)) (fun k => x2 (ix2 p k)) c := by
  have e56 : ∀ u : Fin 1, idx_main_v56 (ix2 u p) = ix1 p := fun u => funext fun a => match a with | ⟨0, _⟩ => rfl
  have e57 : ∀ u : Fin 1, idx_main_v57 (ix2 u p) = ix1 p := fun u => funext fun a => match a with | ⟨0, _⟩ => rfl
  have e58 : ∀ u : Fin 1, idx_main_v58 (ix2 u p) = ix1 p := fun u => funext fun a => match a with | ⟨0, _⟩ => rfl
  have hi : ∀ b : Fin S1x262144.rank, b.cast rfl ≠ (0 : Fin S3x262144.rank) →
      ((ix2 (0 : Fin 1) p : S1x262144.Idx) b).val = ((ix2 c p : S3x262144.Idx) (b.cast rfl)).val := by
    intro b hb
    match b with
    | ⟨0, _⟩ => exact absurd rfl hb
    | ⟨1, _⟩ => rfl
  unfold val_main_v59
  match c with
  | ⟨0, _⟩ =>
    refine (concatenate_apply_piece 0 _ _ (ix2 (0 : Fin 3) p) 0 (by simp) S1x262144 _ rfl rfl 0 (by simp) (ix2 (0 : Fin 1) p) hi rfl).trans ?_
    rw [val_main_v56_apply, e56, err_at x0 x1 x2 x3 x4 x5 x6 x7 x8 x9]
    rfl
  | ⟨1, _⟩ =>
    refine (concatenate_apply_piece 0 _ _ (ix2 (1 : Fin 3) p) 1 (by simp) S1x262144 _ rfl rfl 1 (by simp) (ix2 (0 : Fin 1) p) hi rfl).trans ?_
    rw [val_main_v57_apply, e57, nov_at x2 x3 x4 x5 x6 x7 x8 x9 h]
    rfl
  | ⟨2, _⟩ =>
    refine (concatenate_apply_piece 0 _ _ (ix2 (2 : Fin 3) p) 2 (by simp) S1x262144 _ rfl rfl 2 (by simp) (ix2 (0 : Fin 1) p) hi rfl).trans ?_
    rw [val_main_v58_apply, e58, val_main_v55_apply, val_main_v52_apply, val_main_v54_apply, val_main_v51_apply,
      val_main_cst_8_apply, val_main_v53_apply, val_main_cst_9_apply, err_at x0 x1 x2 x3 x4 x5 x6 x7 x8 x9,
      nov_at x2 x3 x4 x5 x6 x7 x8 x9 h]
    rfl

/-- The reference's result array is `Cert.Curiosity.result` of its arguments. -/
theorem ref_eq : val_main_v59 (F := Ideal) x0 x1 x2 x3 x4 x5 x6 x7 x8 x9 = result x0 x1 x2 x3 x4 x5 x6 x7 x8 x9 := by
  funext i
  obtain ⟨c, p, rfl⟩ : ∃ (c : Fin 3) (p : Fin 262144), i = ix2 c p := ⟨i 0, i 1, eq_ix2 i⟩
  rw [result_apply]
  exact out_at x0 x1 x2 x3 x4 x5 x6 x7 x8 x9 (by decide) c p

end Cert.ReferenceIdeal.Rows

end
-- ==== Proof.lean ====
/-
  The curiosity reward of 262144 samples, computed by a pipelined kernel and by a plain array program: the two agree on
  the extended reals.

  Each sample has a state row, an action row and a next-state row. A two-layer perceptron predicts the next state from
  the state and the action; a one-layer feature extractor is applied to the predicted and to the actual next state; the
  prediction error is the mean squared difference of the two feature rows; the novelty is the (capped, scaled) distance
  from the actual features to the nearest of 100 remembered rows, by the expansion ‖a‖² + ‖s‖² − 2 a·s; the reward is
  half of each. The result is the 3 × 262144 array of errors, novelties and rewards (`Cert.Curiosity.result`).

  The kernel streams the samples in 64 blocks of 4096 rows with the weights resident, and multiplies the state and the
  action by the two column ranges of the first layer's matrix separately; the reference joins state and action into one
  row of 160 entries and multiplies by the whole matrix. At the exact values the two agree because a sum over 160 columns
  is the sum over the first 128 plus the sum over the last 32 (`Cert.Curiosity.sum_160`): addition of extended reals is
  commutative and associative, so no input needs to be finite for this, and the precondition is not opened. Everything else
  is the same operations in another layout: products into a zero accumulator against the host's products, sums and
  minima along rows against the host's reductions, rounding to sixteen bits the identity.

  `KernelValue.lean` reads the kernel's result array off its frame run (block by block, then the cover);
  `RefRows.lean` reads the reference's result entry by entry; both are `result` of the argument arrays. The ideal pass
  rewrote nothing, so `preserves` is `True`.
-/
import proofs.«118929_j55027120996868_2_alg».proof.Defs
import proofs.«118929_j55027120996868_2_alg».proof.Proof.Gen.Kernel
import proofs.«118929_j55027120996868_2_alg».proof.Proof.Gen.Kernel.Skeleton
import proofs.«118929_j55027120996868_2_alg».proof.Proof.Gen.Kernel.Launch
import proofs.«118929_j55027120996868_2_alg».proof.Proof.Gen.Kernel.Points
import proofs.«118929_j55027120996868_2_alg».proof.Proof.Gen.Kernel.Frame
import proofs.«118929_j55027120996868_2_alg».proof.Proof.Gen.KernelIdeal
import proofs.«118929_j55027120996868_2_alg».proof.Proof.Gen.KernelIdeal.Skeleton
import proofs.«118929_j55027120996868_2_alg».proof.Proof.Gen.KernelIdeal.Launch
import proofs.«118929_j55027120996868_2_alg».proof.Proof.Gen.KernelIdeal.Points
import proofs.«118929_j55027120996868_2_alg».proof.Proof.Gen.KernelIdeal.Frame
import proofs.«118929_j55027120996868_2_alg».proof.Proof.Gen.ReferenceIdeal
import proofs.«118929_j55027120996868_2_alg».proof.Proof.Gen.Pre_finite_inputs
import proofs.«118929_j55027120996868_2_alg».proof.Proof.Gen.KernelIdeal.Value
import proofs.«118929_j55027120996868_2_alg».proof.Proof.RunPatched
import proofs.«118929_j55027120996868_2_alg».proof.Proof.ReadPatched
import proofs.«118929_j55027120996868_2_alg».proof.Proof.KernelValue
import proofs.«118929_j55027120996868_2_alg».proof.Proof.RefRows
import Idealize.ShloMosaic.Adequacy
import Idealize.ShloMosaic.Init

noncomputable section

namespace Cert.Proof

open Idealize.ShloMosaic Idealize.ShloMosaic.TcCoe Idealize.SL.Sem

/-- The reference run's result term is its last stage: the join of the three rows. -/
theorem ref_result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v59 m c
      = Cert.ReferenceIdeal.ReadP.val_main_v59 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9)) := by
  unfold Cert.ReferenceIdeal.ValueP.res_main_v59; rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with `Cert.Curiosity.result` of their argument arrays, and the arguments agree. -/
theorem algebraic : Cert.algebraic_KernelIdeal_ReferenceIdeal := by
  intro m ρ m' ρ' _ hagree
  refine ⟨fun c => Cert.KernelIdeal.Whole.res m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9⟩ := hagree c
  rw [ref_result_eq, Cert.ReferenceIdeal.Rows.ref_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
